-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x50257 : Shape := ⟨2, ![4096, 50257]⟩
abbrev S4096 : Shape := ⟨1, ![4096]⟩
abbrev S_ : Shape := ⟨0, ![]⟩

class Facts : Prop where
  bcast_S_S4096x50257 : S_.BroadcastsInDim S4096x50257 (![] : Fin 0 → Fin S4096x50257.rank)
  reducesTo_S4096x50257_S_d0_1 : S4096x50257.ReducesTo [0, 1] S_
  h_S_ : 0 < S_.numel

variable [Facts]

def fn {F : FTy → Type} [FloatOps F] (main_arg0 : FVec F S4096x50257 .f32) (main_arg1 : IVec S4096 32) : IVec S_ 1 :=
  let main_v0 : FVec F S4096x50257 .f32 := Host.absf main_arg0
  let main_cst : FVec F S_ .f32 := constant S_ .f32 0x7F800000#32
  let main_v1 : FVec F S4096x50257 .f32 := broadcastInDim S4096x50257 ![] bcast_S_S4096x50257 main_cst
  let main_v2 : IVec S4096x50257 1 := cmpf .olt main_v0 main_v1
  let main_c : IVec S_ 1 := constantI S_ 1 1#1
  let main_v3 : IVec S_ 1 := (fun x v => Host.reduce IntOp.andi x v reducesTo_S4096x50257_S_d0_1 h_S_) main_v2 main_c
  main_v3
-- ==== Kernel.lean ====
abbrev S4096x50257 : Shape := ⟨2, ![4096, 50257]⟩
abbrev S4096 : Shape := ⟨1, ![4096]⟩
abbrev S4096x1 : Shape := ⟨2, ![4096, 1]⟩
abbrev S_ : Shape := ⟨0, ![]⟩
abbrev S4096x1x1 : Shape := ⟨3, ![4096, 1, 1]⟩
abbrev S1 : Shape := ⟨1, ![1]⟩
abbrev S1x1x1 : Shape := ⟨3, ![1, 1, 1]⟩
abbrev S2x1x128 : Shape := ⟨3, ![2, 1, 128]⟩
abbrev S32x50257 : Shape := ⟨2, ![32, 50257]⟩
abbrev S32x1 : Shape := ⟨2, ![32, 1]⟩
abbrev S1x1x128 : Shape := ⟨3, ![1, 1, 128]⟩
abbrev S32 : Shape := ⟨1, ![32]⟩
abbrev S1x1 : Shape := ⟨2, ![1, 1]⟩
abbrev S2x1x1 : Shape := ⟨3, ![2, 1, 1]⟩
abbrev S2 : Shape := ⟨1, ![2]⟩

abbrev nBuf : Space → Nat
  | .hbm => 42
  | .vmem => 8
  | .smem => 0
  | _ => 0

abbrev bufTy : (tb : Table) → Fin (tcTables nBuf tb) → BufTy
  | .hbm, ⟨0, _⟩ => ⟨S4096x50257, .f32⟩
  | .hbm, ⟨1, _⟩ => ⟨S4096, .i32⟩
  | .hbm, ⟨2, _⟩ => ⟨S4096x1, .i32⟩
  | .hbm, ⟨3, _⟩ => ⟨S_, .i32⟩
  | .hbm, ⟨4, _⟩ => ⟨S4096x1, .i32⟩
  | .hbm, ⟨5, _⟩ => ⟨S4096x1, .i1⟩
  | .hbm, ⟨6, _⟩ => ⟨S_, .i32⟩
  | .hbm, ⟨7, _⟩ => ⟨S4096x1, .i32⟩
  | .hbm, ⟨8, _⟩ => ⟨S4096x1, .i32⟩
  | .hbm, ⟨9, _⟩ => ⟨S4096x1, .i32⟩
  | .hbm, ⟨10, _⟩ => ⟨S4096x1x1, .i32⟩
  | .hbm, ⟨11, _⟩ => ⟨S1, .i32⟩
  | .hbm, ⟨12, _⟩ => ⟨S_, .i32⟩
  | .hbm, ⟨13, _⟩ => ⟨S4096x1x1, .i32⟩
  | .hbm, ⟨14, _⟩ => ⟨S4096x1x1, .i1⟩
  | .hbm, ⟨15, _⟩ => ⟨S1x1x1, .i32⟩
  | .hbm, ⟨16, _⟩ => ⟨S4096x1x1, .i32⟩
  | .hbm, ⟨17, _⟩ => ⟨S4096x1x1, .i1⟩
  | .hbm, ⟨18, _⟩ => ⟨S4096x1x1, .i1⟩
  | .hbm, ⟨19, _⟩ => ⟨S_, .i1⟩
  | .hbm, ⟨20, _⟩ => ⟨S4096x1, .i1⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S2x1x128, .f32⟩
  | .hbm, ⟨26, _⟩ => ⟨S2x1x128, .f32⟩
  | .hbm, ⟨27, _⟩ => ⟨S2x1x1, .f32⟩
  | .hbm, ⟨28, _⟩ => ⟨S2, .f32⟩
  | .hbm, ⟨29, _⟩ => ⟨S_, .f32⟩
  | .hbm, ⟨30, _⟩ => ⟨S_, .f32⟩
  | .hbm, ⟨31, _⟩ => ⟨S2x1x1, .f32⟩
  | .hbm, ⟨32, _⟩ => ⟨S2, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1, .f32⟩
  | .local _ .vmem, ⟨0, _⟩ => ⟨S32x50257, .f32⟩
  | .local _ .vmem, ⟨1, _⟩ => ⟨S32x50257, .f32⟩
  | .local _ .vmem, ⟨2, _⟩ => ⟨S32x1, .f32⟩
  | .local _ .vmem, ⟨3, _⟩ => ⟨S32x1, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | _, _ => ⟨S4096x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2_0 : Ref sig .tc := ⟨.hbm, 25, rfl⟩
abbrev main_v2_1 : Ref sig .tc := ⟨.hbm, 26, rfl⟩
abbrev main_v3 : Ref sig .tc := ⟨.hbm, 27, rfl⟩
abbrev main_v4 : Ref sig .tc := ⟨.hbm, 28, rfl⟩
abbrev main_cst : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst_0 : Ref sig .tc := ⟨.hbm, 33, rfl⟩
abbrev main_v8 : Ref sig .tc := ⟨.hbm, 34, rfl⟩
abbrev main_cst_1 : Ref sig .tc := ⟨.hbm, 35, rfl⟩
abbrev main_v9 : Ref sig .tc := ⟨.hbm, 36, rfl⟩
abbrev main_cst_2 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x50257 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S4096_S4096x1_0 : S4096.BroadcastsInDim S4096x1 (![0] : Fin 1 → Fin S4096x1.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  h_S_ : 0 < S_.numel
  inb_S1x1x128_S1x1x128_0_0_0 : ∀ a, (![0, 0, 0] : Fin 3 → Nat) a + S1x1x128.size a ≤ S1x1x128.size a
  h_S1x1x128 : 0 < S1x1x128.numel
  inb_S32x50257_S32x50257_0_0 : ∀ a, (![0, 0] : Fin 2 → Nat) a + S32x50257.size a ≤ S32x50257.size a
  h_S32x50257 : 0 < S32x50257.numel
  reduces_S32x50257_S32 : S32x50257.Reduces [1] S32
  shapeCasts_S32_S32x1 : S32.ShapeCasts S32x1
  broadcasts_S32x1_S32x50257 : S32x1.Broadcasts S32x50257
  inb_S32x1_S32x1_0_0 : ∀ a, (![0, 0] : Fin 2 → Nat) a + S32x1.size a ≤ S32x1.size a
  h_S32x1 : 0 < S32x1.numel
  shapeCasts_S32x1_S32x1 : S32x1.ShapeCasts S32x1
  reduces_S32x1_S1 : S32x1.Reduces [0] S1
  shapeCasts_S1_S1x1 : S1.ShapeCasts S1x1
  natLt_1_32 : 1 < 32
  shapeCasts_S1x1x128_S1x1x128 : S1x1x128.ShapeCasts S1x1x128
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  slices_S2x1x128_S2x1x1_0_0_0 : S2x1x128.Slices ![0, 0, 0] S2x1x1
  shapeCasts_S2x1x1_S2 : S2x1x1.ShapeCasts S2
  reducesTo_S2_S_d0 : S2.ReducesTo [0] S_
  shapeCasts_S_S1 : S_.ShapeCasts S1
  gather_S4096x50257_S4096x1x1_S4096x1_n_1_0_0_1_2_11_wf : GatherDims.WF S4096x50257 S4096x1x1 S4096x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x50257.size a ≤ S4096x50257.size a
  hwx0_0 : ∀ i : grid0.Coords, EltTy.bits .f32 = 32 ∨ (Rect.block (s := S4096x50257) S32x50257.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S4096x1.size a
  hwx0_1 : ∀ i : grid0.Coords, EltTy.bits .f32 = 32 ∨ (Rect.block (s := S4096x1) S32x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S2x1x128.size a
  hwx0_2 : ∀ i : grid0.Coords, EltTy.bits .f32 = 32 ∨ (Rect.block (s := S2x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)

variable [Facts₀]

def gather_S4096x50257_S4096x1x1_S4096x1_n_1_0_0_1_2_11 : GatherDims S4096x50257 S4096x1x1 S4096x1 where
  offsetDims := []
  collapsedSliceDims := [1]
  operandBatchingDims := [0]
  startIndicesBatchingDims := [0]
  startIndexMap := [1]
  indexVectorDim := 2
  sliceSizes := ![1, 1]
  wf := gather_S4096x50257_S4096x1x1_S4096x1_n_1_0_0_1_2_11_wf

abbrev win0_0 : Pipeline.Window sig grid0 :=
  Pipeline.Window.ofSpec (Memref.whole main_arg0) S32x50257.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x50257 : Shape := ⟨2, ![4096, 50257]⟩
abbrev S4096 : Shape := ⟨1, ![4096]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 63
  | .vmem => 0
  | .smem => 0
  | _ => 0

abbrev bufTy : (tb : Table) → Fin (tcTables nBuf tb) → BufTy
  | .hbm, ⟨0, _⟩ => ⟨S4096x50257, .f32⟩
  | .hbm, ⟨1, _⟩ => ⟨S4096, .i32⟩
  | .hbm, ⟨2, _⟩ => ⟨S_, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096x1, .f32⟩
  | .hbm, ⟨8, _⟩ => ⟨S4096x50257, .f32⟩
  | .hbm, ⟨9, _⟩ => ⟨S4096x50257, .f32⟩
  | .hbm, ⟨10, _⟩ => ⟨S4096x50257, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S4096x50257, .f32⟩
  | .hbm, ⟨16, _⟩ => ⟨S4096x50257, .f32⟩
  | .hbm, ⟨17, _⟩ => ⟨S4096x1, .i32⟩
  | .hbm, ⟨18, _⟩ => ⟨S_, .i32⟩
  | .hbm, ⟨19, _⟩ => ⟨S4096x1, .i32⟩
  | .hbm, ⟨20, _⟩ => ⟨S4096x1, .i1⟩
  | .hbm, ⟨21, _⟩ => ⟨S_, .i32⟩
  | .hbm, ⟨22, _⟩ => ⟨S4096x1, .i32⟩
  | .hbm, ⟨23, _⟩ => ⟨S4096x1, .i32⟩
  | .hbm, ⟨24, _⟩ => ⟨S4096x1, .i32⟩
  | .hbm, ⟨25, _⟩ => ⟨S4096x1x1, .i32⟩
  | .hbm, ⟨26, _⟩ => ⟨S1, .i32⟩
  | .hbm, ⟨27, _⟩ => ⟨S_, .i32⟩
  | .hbm, ⟨28, _⟩ => ⟨S4096x1x1, .i32⟩
  | .hbm, ⟨29, _⟩ => ⟨S4096x1x1, .i1⟩
  | .hbm, ⟨30, _⟩ => ⟨S1x1x1, .i32⟩
  | .hbm, ⟨31, _⟩ => ⟨S4096x1x1, .i32⟩
  | .hbm, ⟨32, _⟩ => ⟨S4096x1x1, .i1⟩
  | .hbm, ⟨33, _⟩ => ⟨S4096x1x1, .i1⟩
  | .hbm, ⟨34, _⟩ => ⟨S_, .i1⟩
  | .hbm, ⟨35, _⟩ => ⟨S4096x1, .i1⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .i1⟩
  | .hbm, ⟨45, _⟩ => ⟨S4096, .f32⟩
  | .hbm, ⟨46, _⟩ => ⟨S4096, .i32⟩
  | .hbm, ⟨47, _⟩ => ⟨S_, .i32⟩
  | .hbm, ⟨48, _⟩ => ⟨S_, .i32⟩
  | .hbm, ⟨49, _⟩ => ⟨S_, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S_, .f32⟩
  | .hbm, ⟨54, _⟩ => ⟨S_, .f32⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S_, .i32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S1, .f32⟩
  | _, _ => ⟨S4096x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_cst : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_c : Ref sig .tc := ⟨.hbm, 47, rfl⟩
abbrev main_v9 : Ref sig .tc := ⟨.hbm, 48, rfl⟩
abbrev main_cst_0 : Ref sig .tc := ⟨.hbm, 49, rfl⟩
abbrev main_call2_v0 : Ref sig .tc := ⟨.hbm, 50, rfl⟩
abbrev main_call2_v1 : Ref sig .tc := ⟨.hbm, 51, rfl⟩
abbrev main_v10 : Ref sig .tc := ⟨.hbm, 52, rfl⟩
abbrev main_cst_1 : Ref sig .tc := ⟨.hbm, 53, rfl⟩
abbrev main_v11 : Ref sig .tc := ⟨.hbm, 54, rfl⟩
abbrev main_c_2 : Ref sig .tc := ⟨.hbm, 55, rfl⟩
abbrev main_v12 : Ref sig .tc := ⟨.hbm, 56, rfl⟩
abbrev main_c_3 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩

abbrev nD : Nat := 1
abbrev τ : Topo := Topo.v7x

variable {F : FTy → Type} [FloatOps F]

class Facts₀ : Prop where
  reducesTo_S4096x50257_S4096_d1 : S4096x50257.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x50257_0_1 : S4096x1.BroadcastsInDim S4096x50257 (![0, 1] : Fin 2 → Fin S4096x50257.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  natLt_1_32 : 1 < 32
  reducesTo_S4096_S_d0 : S4096.ReducesTo [0] S_
  shapeCasts_S_S1 : S_.ShapeCasts S1
  gather_S4096x50257_S4096x1x1_S4096x1_n_1_0_0_1_2_11_wf : GatherDims.WF S4096x50257 S4096x1x1 S4096x1 [] [1] [0] [1] [0] 2 ![1, 1]

variable [Facts₀]

def gather_S4096x50257_S4096x1x1_S4096x1_n_1_0_0_1_2_11 : GatherDims S4096x50257 S4096x1x1 S4096x1 where
  offsetDims := []
  collapsedSliceDims := [1]
  operandBatchingDims := [0]
  startIndicesBatchingDims := [0]
  startIndexMap := [1]
  indexVectorDim := 2
  sliceSizes := ![1, 1]
  wf := gather_S4096x50257_S4096x1x1_S4096x1_n_1_0_0_1_2_11_wf

class Facts : Prop extends Facts₀ where

variable [Facts]
-- ==== Proof.RefRun.lean ====
/-
  The reference's run, read in three stretches.

  The reference is a straight line of 61 host operations: the log-softmax of the logits (15 operations), the gather of
  the target's entry of every row (23 operations, the target's broadcast included), and the masked mean (23 operations).
  After the whole line each buffer holds the fold of the operations' results over the launch contents; the fold over a
  concatenation is the fold over its second part of the fold over its first. Each stretch's result is a function of the
  contents it starts from: the log-softmax's a function of the logits, the gather's a function of whatever array
  stands in the log-softmax's buffer and of the targets, the mean's a function of whatever column stands in the gather's
  buffer; composed, they are the reference's result read one operation at a time.
-/
import proofs.«181233_j69595650064809_2_alg».proof.Proof.ReadP
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- The log-softmax: 15 operations, from the logits to `main_v0`. -/
abbrev opsA : List (HloOp τ sig (Elt F)) :=
  [ TRef.nullary (TRef.of (T := ⟨S_, .f32⟩) main_call0_cst) (constant S_ .f32 0xFF800000#32),
    TRef.binary (TRef.of (T := ⟨S4096x50257, .f32⟩) main_arg0) (TRef.of (T := ⟨S_, .f32⟩) main_call0_cst) (TRef.of (T := ⟨S4096, .f32⟩) main_call0_v0) (fun x v => Host.reduce FloatOps.maximumf x v reducesTo_S4096x50257_S4096_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_call0_v0) (TRef.of (T := ⟨S4096, .f32⟩) main_call0_v2) maximumf,
    TRef.unary (TRef.of (T := ⟨S4096, .f32⟩) main_call0_v2) (TRef.of (T := ⟨S4096x1, .f32⟩) main_call0_v3) (broadcastInDim S4096x1 ![0] bcast_S4096_S4096x1_0),
    TRef.unary (TRef.of (T := ⟨S4096x1, .f32⟩) main_call0_v3) (TRef.of (T := ⟨S4096x50257, .f32⟩) main_call0_v4) (broadcastInDim S4096x50257 ![0, 1] bcast_S4096x1_S4096x50257_0_1),
    TRef.binary (TRef.of (T := ⟨S4096x50257, .f32⟩) main_arg0) (TRef.of (T := ⟨S4096x50257, .f32⟩) main_call0_v4) (TRef.of (T := ⟨S4096x50257, .f32⟩) main_call0_v5) subf,
    TRef.unary (TRef.of (T := ⟨S4096x50257, .f32⟩) main_call0_v5) (TRef.of (T := ⟨S4096x50257, .f32⟩) main_call0_v6) Host.exp,
    TRef.nullary (TRef.of (T := ⟨S_, .f32⟩) main_call0_cst_1) (constant S_ .f32 0x00000000#32),
    TRef.binary (TRef.of (T := ⟨S4096x50257, .f32⟩) main_call0_v6) (TRef.of (T := ⟨S_, .f32⟩) main_call0_cst_1) (TRef.of (T := ⟨S4096, .f32⟩) main_call0_v7) (fun x v => Host.reduceAdd x v reducesTo_S4096x50257_S4096_d1 h_S_),
    TRef.unary (TRef.of (T := ⟨S4096, .f32⟩) main_call0_v7) (TRef.of (T := ⟨S4096x1, .f32⟩) main_call0_v8) (broadcastInDim S4096x1 ![0] bcast_S4096_S4096x1_0),
    TRef.unary (TRef.of (T := ⟨S4096x1, .f32⟩) main_call0_v8) (TRef.of (T := ⟨S4096x1, .f32⟩) main_call0_v9) Host.log,
    TRef.unary (TRef.of (T := ⟨S4096x1, .f32⟩) main_call0_v9) (TRef.of (T := ⟨S4096x50257, .f32⟩) main_call0_v10) (broadcastInDim S4096x50257 ![0, 1] bcast_S4096x1_S4096x50257_0_1),
    TRef.binary (TRef.of (T := ⟨S4096x50257, .f32⟩) main_call0_v5) (TRef.of (T := ⟨S4096x50257, .f32⟩) main_call0_v10) (TRef.of (T := ⟨S4096x50257, .f32⟩) main_v0) subf ]

/-- The gather: the targets' broadcast and the 22 operations of `take_along_axis`, to `main_v2`. -/
abbrev opsB : List (HloOp τ sig (Elt F)) :=
  [ unary main_arg1 main_v1 (broadcastInDim S4096x1 ![0] bcast_S4096_S4096x1_0 : (⟨S4096, .i32⟩ : BufTy).Contents (Elt F) → (⟨S4096x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S4096x1, .i32⟩) main_call1_v0) (broadcastInDim S4096x1 ![] bcast_S_S4096x1),
    TRef.binary (TRef.of (T := ⟨S4096x1, .i32⟩) main_v1) (TRef.of (T := ⟨S4096x1, .i32⟩) main_call1_v0) (TRef.of (T := ⟨S4096x1, .i1⟩) main_call1_v1) (cmpi .slt),
    TRef.nullary (TRef.of (T := ⟨S_, .i32⟩) main_call1_c_0) (constantI S_ 32 50257#32),
    TRef.unary (TRef.of (T := ⟨S_, .i32⟩) main_call1_c_0) (TRef.of (T := ⟨S4096x1, .i32⟩) main_call1_v2) (broadcastInDim S4096x1 ![] bcast_S_S4096x1),
    TRef.binary (TRef.of (T := ⟨S4096x1, .i32⟩) main_v1) (TRef.of (T := ⟨S4096x1, .i32⟩) main_call1_v2) (TRef.of (T := ⟨S4096x1, .i32⟩) main_call1_v3) addi,
    TRef.ternary (TRef.of (T := ⟨S4096x1, .i1⟩) main_call1_v1) (TRef.of (T := ⟨S4096x1, .i32⟩) main_call1_v3) (TRef.of (T := ⟨S4096x1, .i32⟩) main_v1) (TRef.of (T := ⟨S4096x1, .i32⟩) main_call1_v4) select,
    TRef.reshape (TRef.of (T := ⟨S4096x1, .i32⟩) main_call1_v4) (TRef.of (T := ⟨S4096x1x1, .i32⟩) main_call1_v5) rfl shapeCasts_S4096x1_S4096x1x1,
    TRef.nullary (TRef.of (T := ⟨S1, .i32⟩) main_call1_c_1) (constantI S1 32 50256#32),
    TRef.nullary (TRef.of (T := ⟨S_, .i32⟩) main_call1_c_2) (constantI S_ 32 0#32),
    TRef.unary (TRef.of (T := ⟨S_, .i32⟩) main_call1_c_2) (TRef.of (T := ⟨S4096x1x1, .i32⟩) main_call1_v6) (broadcastInDim S4096x1x1 ![] bcast_S_S4096x1x1),
    TRef.binary (TRef.of (T := ⟨S4096x1x1, .i32⟩) main_call1_v5) (TRef.of (T := ⟨S4096x1x1, .i32⟩) main_call1_v6) (TRef.of (T := ⟨S4096x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S4096x1x1, .i32⟩) main_call1_v9) (broadcastInDim S4096x1x1 ![0, 1, 2] bcast_S1x1x1_S4096x1x1_0_1_2),
    TRef.binary (TRef.of (T := ⟨S4096x1x1, .i32⟩) main_call1_v5) (TRef.of (T := ⟨S4096x1x1, .i32⟩) main_call1_v9) (TRef.of (T := ⟨S4096x1x1, .i1⟩) main_call1_v10) (cmpi .sle),
    TRef.binary (TRef.of (T := ⟨S4096x1x1, .i1⟩) main_call1_v7) (TRef.of (T := ⟨S4096x1x1, .i1⟩) main_call1_v10) (TRef.of (T := ⟨S4096x1x1, .i1⟩) main_call1_v11) andi,
    TRef.nullary (TRef.of (T := ⟨S_, .i1⟩) main_call1_c_3) (constantI S_ 1 1#1),
    TRef.binary (TRef.of (T := ⟨S4096x1x1, .i1⟩) main_call1_v11) (TRef.of (T := ⟨S_, .i1⟩) main_call1_c_3) (TRef.of (T := ⟨S4096x1, .i1⟩) main_call1_v12) (fun x v => Host.reduce IntOp.andi x v reducesTo_S4096x1x1_S4096x1_d2 h_S_),
    TRef.binary (TRef.of (T := ⟨S4096x50257, .f32⟩) main_v0) (TRef.of (T := ⟨S4096x1x1, .i32⟩) main_call1_v5) (TRef.of (T := ⟨S4096x1, .f32⟩) main_call1_v13) (fun x i => Host.gather gather_S4096x50257_S4096x1x1_S4096x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S4096x1, .f32⟩) main_call1_v14) (broadcastInDim S4096x1 ![] bcast_S_S4096x1),
    TRef.ternary (TRef.of (T := ⟨S4096x1, .i1⟩) main_call1_v12) (TRef.of (T := ⟨S4096x1, .f32⟩) main_call1_v13) (TRef.of (T := ⟨S4096x1, .f32⟩) main_call1_v14) (TRef.of (T := ⟨S4096x1, .f32⟩) main_v2) select ]

/-- The masked mean: 23 operations, from the gathered column to the result `main_v17`. -/
abbrev opsC : List (HloOp τ sig (Elt F)) :=
  [ reshape main_v2 main_v3 rfl shapeCasts_S4096x1_S4096,
    unary main_v3 main_v4 (Host.exp : (⟨S4096, .f32⟩ : BufTy).Contents (Elt F) → (⟨S4096, .f32⟩ : BufTy).Contents (Elt F)),
    nullary main_cst (constant S_ .f32 0x3F4CCCCD#32),
    unary main_cst main_v5 (broadcastInDim S4096 ![] bcast_S_S4096 : (⟨S_, .f32⟩ : BufTy).Contents (Elt F) → (⟨S4096, .f32⟩ : BufTy).Contents (Elt F)),
    binary main_v4 main_v5 main_v6 (cmpf .olt : (⟨S4096, .f32⟩ : BufTy).Contents (Elt F) → (⟨S4096, .f32⟩ : BufTy).Contents (Elt F) → (⟨S4096, .i1⟩ : BufTy).Contents (Elt F)),
    unary main_v3 main_v7 (Host.negf : (⟨S4096, .f32⟩ : BufTy).Contents (Elt F) → (⟨S4096, .f32⟩ : BufTy).Contents (Elt F)),
    unary main_v6 main_v8 ((extui 32 · natLt_1_32) : (⟨S4096, .i1⟩ : BufTy).Contents (Elt F) → (⟨S4096, .i32⟩ : BufTy).Contents (Elt F)),
    nullary main_c (constantI S_ 32 0#32),
    binary main_v8 main_c main_v9 ((fun x v => Host.reduce IntOp.addi x v reducesTo_S4096_S_d0 h_S_) : (⟨S4096, .i32⟩ : BufTy).Contents (Elt F) → (⟨S_, .i32⟩ : BufTy).Contents (Elt F) → (⟨S_, .i32⟩ : BufTy).Contents (Elt F)),
    nullary main_cst_0 (constant S_ .f32 0x00000000#32),
    TRef.unary (TRef.of (T := ⟨S_, .f32⟩) main_cst_0) (TRef.of (T := ⟨S_, .f32⟩) main_call2_v0) id,
    TRef.unary (TRef.of (T := ⟨S_, .f32⟩) main_call2_v0) (TRef.of (T := ⟨S4096, .f32⟩) main_call2_v1) (broadcastInDim S4096 ![] bcast_S_S4096),
    TRef.ternary (TRef.of (T := ⟨S4096, .i1⟩) main_v6) (TRef.of (T := ⟨S4096, .f32⟩) main_v7) (TRef.of (T := ⟨S4096, .f32⟩) main_call2_v1) (TRef.of (T := ⟨S4096, .f32⟩) main_v10) select,
    nullary main_cst_1 (constant S_ .f32 0x00000000#32),
    binary main_v10 main_cst_1 main_v11 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_c_2 (constantI S_ 32 0#32),
    binary main_v9 main_c_2 main_v12 (cmpi .sgt : (⟨S_, .i32⟩ : BufTy).Contents (Elt F) → (⟨S_, .i32⟩ : BufTy).Contents (Elt F) → (⟨S_, .i1⟩ : BufTy).Contents (Elt F)),
    nullary main_c_3 (constantI S_ 32 1#32),
    binary main_v9 main_c_3 main_v13 (maxsi : (⟨S_, .i32⟩ : BufTy).Contents (Elt F) → (⟨S_, .i32⟩ : BufTy).Contents (Elt F) → (⟨S_, .i32⟩ : BufTy).Contents (Elt F)),
    unary main_v13 main_v14 (sitofp .f32 : (⟨S_, .i32⟩ : BufTy).Contents (Elt F) → (⟨S_, .f32⟩ : BufTy).Contents (Elt F)),
    binary main_v11 main_v14 main_v15 (Host.divf : (⟨S_, .f32⟩ : BufTy).Contents (Elt F) → (⟨S_, .f32⟩ : BufTy).Contents (Elt F) → (⟨S_, .f32⟩ : BufTy).Contents (Elt F)),
    TRef.ternary (TRef.of (T := ⟨S_, .i1⟩) main_v12) (TRef.of (T := ⟨S_, .f32⟩) main_v15) (TRef.of (T := ⟨S_, .f32⟩) main_v11) (TRef.of (T := ⟨S_, .f32⟩) main_v16) select,
    reshape main_v16 main_v17 rfl shapeCasts_S_S1 ]

/-- @main's 61 operations, in order. -/
abbrev ops : List (HloOp τ sig (Elt F)) := opsA ++ (opsB ++ opsC)

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., nullary_bufs_sub .., unary_bufs_sub .., binary_bufs_sub .., unary_bufs_sub .., unary_bufs_sub .., nullary_bufs_sub .., binary_bufs_sub .., nullary_bufs_sub .., unary_bufs_sub .., unary_bufs_sub .., ternary_bufs_sub .., nullary_bufs_sub .., binary_bufs_sub .., nullary_bufs_sub .., binary_bufs_sub .., nullary_bufs_sub .., binary_bufs_sub .., unary_bufs_sub .., binary_bufs_sub .., ternary_bufs_sub .., reshape_bufs_sub ..⟩

/-! ## The three stretches, each from an arbitrary valuation -/

/-- Contents carried into a typed reference's buffer and back are the contents. -/
theorem ofBuf_toBuf {T : BufTy} (x : TRef sig T) (v : T.Contents (Elt F)) : x.ofBuf (x.toBuf v) = v := by
  obtain ⟨r, rfl, _, _⟩ := x
  rfl

attribute [local irreducible] Host.reduce Host.gather in
set_option maxRecDepth 8192 in
set_option maxHeartbeats 1000000 in
/-- After the log-softmax `main_v0` holds the log-softmax of what `main_arg0` held, -/
theorem A_v0 (V : Valuation τ sig (Elt F)) :
    after opsA V (Proc.devRef .tc main_v0) = val_main_v0 (F := F) (V (Proc.devRef .tc main_arg0)) := by
  after_results_simp
  simp only [ofBuf_toBuf]
  rfl

set_option maxRecDepth 8192 in
/-- and the targets are as they were. -/
theorem A_arg1 (V : Valuation τ sig (Elt F)) :
    after opsA V (Proc.devRef .tc main_arg1) = V (Proc.devRef .tc main_arg1) := by
  after_results_simp <;> rfl

/-- The gather of the target's entry of every row of an array `src` (the fill value for an out-of-range target the NaN
    word): `take_along_axis`'s result as a function of the array gathered from. -/
def take (src : (⟨S4096x50257, .f32⟩ : BufTy).Contents (Elt F)) (x1 : (⟨S4096, .i32⟩ : BufTy).Contents (Elt F)) :
    (⟨S4096x1, .f32⟩ : BufTy).Contents (Elt F) :=
  select (val_main_call1_v12 (F := F) x1)
    (Host.gather gather_S4096x50257_S4096x1x1_S4096x1_n_1_0_0_1_2_11 src (val_main_call1_v5 (F := F) x1))
    (val_main_call1_v14 (F := F))

attribute [local irreducible] Host.reduce Host.gather in
set_option maxRecDepth 8192 in
set_option maxHeartbeats 1000000 in
/-- After the gather `main_v2` holds the gather of what `main_v0` held, at the targets `main_arg1` held. -/
theorem B_v2 (V : Valuation τ sig (Elt F)) :
    after opsB V (Proc.devRef .tc main_v2) = take (V (Proc.devRef .tc main_v0)) (V (Proc.devRef .tc main_arg1)) := by
  after_results_simp
  simp only [ofBuf_toBuf]
  rfl

/-- The masked mean of a gathered column `g`: the reference's last 23 operations as a function of the column. -/
def mean (g : (⟨S4096x1, .f32⟩ : BufTy).Contents (Elt F)) : (⟨S1, .f32⟩ : BufTy).Contents (Elt F) :=
  let v3 : (⟨S4096, .f32⟩ : BufTy).Contents (Elt F) := shapeCast _ g shapeCasts_S4096x1_S4096
  let v6 : (⟨S4096, .i1⟩ : BufTy).Contents (Elt F) := cmpf .olt (Host.exp v3) (val_main_v5 (F := F))
  let v9 : (⟨S_, .i32⟩ : BufTy).Contents (Elt F) :=
    Host.reduce IntOp.addi (extui 32 v6 natLt_1_32) (val_main_c (F := F)) reducesTo_S4096_S_d0 h_S_
  let v11 : (⟨S_, .f32⟩ : BufTy).Contents (Elt F) :=
    Host.reduceAdd (select v6 (Host.negf v3) (val_main_call2_v1 (F := F))) (val_main_cst_1 (F := F)) reducesTo_S4096_S_d0 h_S_
  shapeCast _ (select (cmpi .sgt v9 (val_main_c_2 (F := F)))
    (Host.divf v11 (sitofp .f32 (maxsi v9 (val_main_c_3 (F := F))))) v11) shapeCasts_S_S1

attribute [local irreducible] Host.reduce Host.gather in
set_option maxRecDepth 8192 in
set_option maxHeartbeats 1000000 in
/-- After the mean `main_v17` holds the masked mean of what `main_v2` held. -/
theorem C_v17 (V : Valuation τ sig (Elt F)) :
    after opsC V (Proc.devRef .tc main_v17) = mean (V (Proc.devRef .tc main_v2)) := by
  after_results_simp
  simp only [ofBuf_toBuf]
  rfl

set_option maxRecDepth 8192 in
/-- The gather leaves the targets' buffer as it was. -/
theorem B_arg1 (V : Valuation τ sig (Elt F)) :
    after opsB V (Proc.devRef .tc main_arg1) = V (Proc.devRef .tc main_arg1) := by
  after_results_simp <;> rfl

/-! ## The whole line -/

attribute [local irreducible] Host.reduce Host.gather in
/-- The staged functions composed are the reference's result as the operation-by-operation reading names it. -/
theorem mean_take (x0 : (⟨S4096x50257, .f32⟩ : BufTy).Contents (Elt F)) (x1 : (⟨S4096, .i32⟩ : BufTy).Contents (Elt F)) :
    mean (take (val_main_v0 (F := F) x0) x1) = val_main_v17 (F := F) x0 x1 := rfl

/-- After the whole line the result buffer holds the reference's result of the launch contents of the arguments. -/
theorem result_eq (V : Valuation τ sig (Elt F)) :
    after ops V (Proc.devRef .tc main_v17)
      = val_main_v17 (F := F) (V (Proc.devRef .tc main_arg0)) (V (Proc.devRef .tc main_arg1)) := by
  show after (opsA ++ (opsB ++ opsC)) V _ = _
  rw [StableHlo.after_append, StableHlo.after_append, C_v17, B_v2, A_v0, A_arg1, mean_take]

/-- No operation writes an argument's buffer. -/
theorem arg_kept (V : Valuation τ sig (Elt F)) (b : Ref sig .tc) (hb : b = main_arg0 ∨ b = main_arg1) :
    after ops V (Proc.devRef .tc b) = V (Proc.devRef .tc b) := by
  show after (opsA ++ (opsB ++ opsC)) V _ = _
  rw [StableHlo.after_append, StableHlo.after_append]
  rcases hb with rfl | rfl
  · refine (after_of_forall_not_mem opsC _ ?_).trans ((after_of_forall_not_mem opsB _ ?_).trans (after_of_forall_not_mem opsA _ ?_))
    all_goals
      refine List.forall_iff_forall_mem.mp ?_
      simp only [List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)
  · refine (after_of_forall_not_mem opsC _ ?_).trans ((after_of_forall_not_mem opsB _ ?_).trans (after_of_forall_not_mem opsA _ ?_))
    all_goals
      refine List.forall_iff_forall_mem.mp ?_
      simp only [List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)

/-- On every device, from any memory with zero counters: every weakly fair execution of @main terminates with the result
    at the reference's result of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17)
          = val_main_v17 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v17).trans (result_eq _),
      (h c main_arg0).trans (arg_kept _ main_arg0 (Or.inl rfl)),
      (h c main_arg1).trans (arg_kept _ main_arg1 (Or.inr rfl))⟩)
    (run_seq scopedRefs_eq scopedSems_eq defs main (fun _ => ops) main_eq (fun _ => ops_sub) m ρ)

end Cert.ReferenceIdeal.RefRun

end
-- ==== Proof.KernelBody.lean ====
import proofs.«181233_j69595650064809_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## What each case of the body leaves in the two running buffers, as the body's payloads

At a core's first point (case A) the body stores the zero block, reads it back and adds the block's contribution; at its
other points (case B) it adds the block's contribution to what the buffer held. -/

theorem out_B_2 (c : Dev nD) (i : grid0.Coords) (a2 : Memref sig .tc .vmem S32x50257 .f32) (h2 : a2.IsWhole)
    (a3 : Memref sig .tc .vmem S32x1 .f32) (h3 : a3.IsWhole) (a4 : Memref sig .tc .vmem S1x1x128 .f32) (h4 : a4.IsWhole)
    (a5 : Memref sig .tc .vmem S1x1x128 .f32) (h5 : a5.IsWhole) (hc : ¬cond0_0 i)
    (x0 : Vec F S32x50257 .f32) (x1 : Vec F S32x1 .f32) (xo2 xo3 : Vec F S1x1x128 .f32) :
    out0_B_2 c i a2 h2 a3 h3 a4 h4 a5 h5 hc x0 x1 xo2 xo3 = k0_pay7 x0 x1 xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, View.ld_unit_zero (S := S32x50257) hz2,
    View.ld_unit_zero (S := S32x1) hz2, View.ld_unit_zero (S := S1x1x128) hz3]

theorem out_B_3 (c : Dev nD) (i : grid0.Coords) (a2 : Memref sig .tc .vmem S32x50257 .f32) (h2 : a2.IsWhole)
    (a3 : Memref sig .tc .vmem S32x1 .f32) (h3 : a3.IsWhole) (a4 : Memref sig .tc .vmem S1x1x128 .f32) (h4 : a4.IsWhole)
    (a5 : Memref sig .tc .vmem S1x1x128 .f32) (h5 : a5.IsWhole) (hc : ¬cond0_0 i)
    (x0 : Vec F S32x50257 .f32) (x1 : Vec F S32x1 .f32) (xo2 xo3 : Vec F S1x1x128 .f32) :
    out0_B_3 c i a2 h2 a3 h3 a4 h4 a5 h5 hc x0 x1 xo2 xo3 = k0_pay1 (k0_pay6 x0 x1) xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h5.read_unread, View.ld_unit_zero (S := S32x50257) hz2,
    View.ld_unit_zero (S := S32x1) hz2, View.ld_unit_zero (S := S1x1x128) hz3]

theorem out_A_2 (c : Dev nD) (i : grid0.Coords) (a2 : Memref sig .tc .vmem S32x50257 .f32) (h2 : a2.IsWhole)
    (a3 : Memref sig .tc .vmem S32x1 .f32) (h3 : a3.IsWhole) (a4 : Memref sig .tc .vmem S1x1x128 .f32) (h4 : a4.IsWhole)
    (a5 : Memref sig .tc .vmem S1x1x128 .f32) (h5 : a5.IsWhole) (hc : cond0_0 i)
    (x0 : Vec F S32x50257 .f32) (x1 : Vec F S32x1 .f32) :
    out0_A_2 c i a2 h2 a3 h3 a4 h4 a5 h5 hc x0 x1 = k0_pay7 x0 x1 (k0_pay2 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x1x128) hz3, View.readCov_unit_zero (S := S1x1x128) _ hz3]
  simp only [View.readAt_eq_ld, h2.read_unread, h3.read_unread, View.ld_unit_zero (S := S32x50257) hz2,
    View.ld_unit_zero (S := S32x1) hz2, View.ld_unit_zero (S := S1x1x128) hz3]

theorem out_A_3 (c : Dev nD) (i : grid0.Coords) (a2 : Memref sig .tc .vmem S32x50257 .f32) (h2 : a2.IsWhole)
    (a3 : Memref sig .tc .vmem S32x1 .f32) (h3 : a3.IsWhole) (a4 : Memref sig .tc .vmem S1x1x128 .f32) (h4 : a4.IsWhole)
    (a5 : Memref sig .tc .vmem S1x1x128 .f32) (h5 : a5.IsWhole) (hc : cond0_0 i)
    (x0 : Vec F S32x50257 .f32) (x1 : Vec F S32x1 .f32) :
    out0_A_3 c i a2 h2 a3 h3 a4 h4 a5 h5 hc x0 x1 = k0_pay1 (k0_pay6 x0 x1) (k0_pay3 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1x128) hz3, View.readCov_unit_zero (S := S1x1x128) _ hz3]
  simp only [View.readAt_eq_ld, h2.read_unread, h3.read_unread, View.ld_unit_zero (S := S32x50257) hz2,
    View.ld_unit_zero (S := S32x1) hz2, View.ld_unit_zero (S := S1x1x128) hz3]

end Cert.KernelIdeal.Body

end
-- ==== Proof.LibWords.lean ====
import Idealize.ShloMosaic.PureOps

/-!
# Small 32-bit words as the numbers they hold

A natural number below `2^31` written as a 32-bit word is non-negative as a signed integer and reads back as itself;
two numbers below `2^32` give equal words only when they are equal; and a word-level sum or product of small numbers
is the word of the sum or product. With these an index computed in 32-bit arithmetic is compared as a number.
-/

namespace Idealize.ShloMosaic.Words

/-- A number below `2^32` reads back from its word. -/
theorem toNat_ofNat_of_lt {n : ℕ} (h : n < 2 ^ 32) : (BitVec.ofNat 32 n).toNat = n := by
  rw [BitVec.toNat_ofNat]; exact Nat.mod_eq_of_lt h

/-- A number below `2^31` reads back from its word as a signed integer. -/
theorem toInt_ofNat_of_lt {n : ℕ} (h : n < 2 ^ 31) : (BitVec.ofNat 32 n).toInt = (n : ℤ) := by
  have hn : (BitVec.ofNat 32 n).toNat = n := toNat_ofNat_of_lt (by omega)
  rw [BitVec.toInt_eq_toNat_of_lt (by rw [hn]; omega), hn]

/-- Numbers below `2^32` with equal words are equal. -/
theorem ofNat_inj_of_lt {a b : ℕ} (ha : a < 2 ^ 32) (hb : b < 2 ^ 32) : BitVec.ofNat 32 a = BitVec.ofNat 32 b ↔ a = b := by
  constructor
  · intro h
    have := congrArg BitVec.toNat h
    rwa [toNat_ofNat_of_lt ha, toNat_ofNat_of_lt hb] at this
  · intro h; rw [h]

/-- A small number's word is not below zero as a signed integer. -/
theorem cmpi_slt_ofNat_zero {n : ℕ} (h : n < 2 ^ 31) : IntOp.cmpi .slt (BitVec.ofNat 32 n) 0#32 = 0#1 := by
  show BitVec.ofBool ((BitVec.ofNat 32 n).slt 0#32) = 0#1
  have : (BitVec.ofNat 32 n).slt 0#32 = false := by
    rw [BitVec.slt, toInt_ofNat_of_lt h]
    simp
  rw [this]; rfl

/-- Equality of the words of two numbers below `2^32` is equality of the numbers. -/
theorem cmpi_eq_ofNat {a b : ℕ} (ha : a < 2 ^ 32) (hb : b < 2 ^ 32) :
    IntOp.cmpi .eq (BitVec.ofNat 32 a) (BitVec.ofNat 32 b) = if a = b then 1#1 else 0#1 := by
  show BitVec.ofBool (BitVec.ofNat 32 a == BitVec.ofNat 32 b) = _
  by_cases h : a = b
  · rw [if_pos h, h]; simp
  · rw [if_neg h]
    have : (BitVec.ofNat 32 a == BitVec.ofNat 32 b) = false := by
      rw [beq_eq_false_iff_ne]; exact fun e => h ((ofNat_inj_of_lt ha hb).mp e)
    rw [this]; rfl

end Idealize.ShloMosaic.Words
-- ==== Proof.LibMaskedMean.lean ====
/-
  General lemmas for a masked mean of per-row values over the extended reals.

  Subtraction: `a - (M + L) = a - M - L` as soon as `M` is a real number, whatever `a` and `L` are, and `⊥ - y = ⊥`.
  A maximum taken from `⊥` over finitely many values is not `⊤` when no value is, and is not `⊥` when some value is
  not. A fold of 32-bit additions from the zero word is the word of the sum of the summands read as naturals; for one-bit
  flags widened to 32 bits that sum is the number of flags set, which is also the sum of the flags read as extended reals.
  Last, the final step of a masked mean — divide the total by the count clamped below by one when the count is positive,
  else return the total — gives the same extended real whether the count is carried as an extended real or as a 32-bit
  signed word of a number below `2^31`.
-/
import Idealize.ShloMosaic.PureOps.Ideal
import Idealize.ShloMosaic.PureOps.Reduce
import Mathlib.Data.Finset.Fold
import proofs.«181233_j69595650064809_2_alg».proof.Proof.LibWords

noncomputable section

open scoped BigOperators

namespace Cert.Lib.MaskedMean

open Idealize.ShloMosaic

/-! ## Subtraction on the extended reals -/

/-- `a - (M + L) = a - M - L` when `M` is neither infinity. -/
theorem sub_add_of_real (a M L : EReal) (h1 : M ≠ ⊥) (h2 : M ≠ ⊤) : a - (M + L) = a - M - L := by
  rw [sub_eq_add_neg a (M + L), EReal.neg_add (Or.inl h1) (Or.inl h2), sub_eq_add_neg (-M) L, ← add_assoc,
    ← sub_eq_add_neg a M, ← sub_eq_add_neg]

/-- `⊥` minus anything is `⊥`. -/
theorem bot_sub (y : EReal) : (⊥ : EReal) - y = ⊥ := by
  rw [sub_eq_add_neg, EReal.bot_add]

/-! ## A maximum from `⊥` over finite values is finite -/

theorem fold_max_ne_top {ι : Type*} (s : Finset ι) (g : ι → EReal) (h : ∀ c ∈ s, g c ≠ ⊤) : s.fold max ⊥ g ≠ ⊤ :=
  ((Finset.fold_max_lt ⊤).mpr ⟨bot_lt_top, fun c hc => lt_top_iff_ne_top.mpr (h c hc)⟩).ne

theorem fold_max_ne_bot {ι : Type*} (s : Finset ι) (g : ι → EReal) (c : ι) (hc : c ∈ s) (h : g c ≠ ⊥) :
    s.fold max ⊥ g ≠ ⊥ :=
  (lt_of_lt_of_le (bot_lt_iff_ne_bot.mpr h) ((Finset.le_fold_max (g c)).mpr (Or.inr ⟨c, hc, le_rfl⟩))).ne'

/-! ## Counting one-bit flags -/

/-- A fold of 32-bit additions from zero is the word of the sum of the summands as naturals. -/
theorem fold_addi_eq_ofNat {ι : Type*} [DecidableEq ι] (s : Finset ι) (f : ι → BitVec 32) :
    s.fold IntOp.addi 0#32 f = BitVec.ofNat 32 (∑ i ∈ s, (f i).toNat) := by
  induction s using Finset.induction_on with
  | empty => rfl
  | insert a s ha ih =>
    rw [Finset.fold_insert ha, Finset.sum_insert ha, ih]
    apply BitVec.eq_of_toNat_eq
    show ((f a) + BitVec.ofNat 32 _).toNat = _
    rw [BitVec.toNat_add, BitVec.toNat_ofNat, BitVec.toNat_ofNat]
    omega

/-- A one-bit flag widened by zeros to 32 bits holds the flag's own number. -/
theorem toNat_setWidth_bit (b : BitVec 1) : (b.setWidth 32).toNat = b.toNat := by
  rcases BitVec.eq_zero_or_eq_one b with h | h <;> subst h <;> decide

theorem toNat_bit_le (b : BitVec 1) : b.toNat ≤ 1 := by have := b.isLt; omega

/-- The number of flags set, of a finite family of one-bit flags. -/
def count {ι : Type*} [Fintype ι] (b : ι → BitVec 1) : ℕ := ∑ i, (b i).toNat

theorem count_le_card {ι : Type*} [Fintype ι] (b : ι → BitVec 1) : count b ≤ Fintype.card ι := by
  unfold count
  calc ∑ i, (b i).toNat ≤ ∑ _i : ι, 1 := Finset.sum_le_sum fun i _ => toNat_bit_le (b i)
    _ = Fintype.card ι := by simp

/-- The 32-bit sum of the widened flags is the word of their count. -/
theorem fold_addi_flags {ι : Type*} [Fintype ι] [DecidableEq ι] (b : ι → BitVec 1) :
    (Finset.univ : Finset ι).fold IntOp.addi 0#32 (fun i => (b i).setWidth 32) = BitVec.ofNat 32 (count b) := by
  rw [fold_addi_eq_ofNat]
  exact congrArg (BitVec.ofNat 32) (Finset.sum_congr rfl fun i _ => toNat_setWidth_bit (b i))

/-- A finite sum of coerced reals is the coercion of the sum. -/
theorem coe_sum {ι : Type*} (s : Finset ι) (g : ι → ℝ) : ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- The widened flags read as signed integers and summed as extended reals give their count. -/
theorem sum_flags_ereal {ι : Type*} [Fintype ι] (b : ι → BitVec 1) :
    ∑ i, ((((b i).setWidth 32).toInt : ℝ) : EReal) = (((count b : ℕ) : ℝ) : EReal) := by
  have h : ∀ i, ((((b i).setWidth 32).toInt : ℝ) : EReal) = ((((b i).toNat : ℕ) : ℝ) : EReal) := fun i => by
    have e : ((b i).setWidth 32).toInt = ((b i).toNat : ℤ) := by
      rcases BitVec.eq_zero_or_eq_one (b i) with h | h <;> rw [h] <;> decide
    rw [e, Int.cast_natCast]
  rw [Finset.sum_congr rfl fun i _ => h i, coe_sum]
  unfold count
  rw [Nat.cast_sum]

/-! ## The last step of a masked mean, with the count as an extended real or as a signed word -/

/-- The mean's last step with the count an extended real. -/
def lossF (tot cf : EReal) : EReal :=
  Scalar.select (Ideal.cmp .ogt cf 0) (Ideal.div tot (max cf 1)) tot

/-- The mean's last step with the count a signed 32-bit word. -/
def lossI (tot : EReal) (cnt : BitVec 32) : EReal :=
  Scalar.select (IntOp.cmpi .sgt cnt 0#32) (Ideal.div tot (((IntOp.maxsi cnt 1#32).toInt : ℝ) : EReal)) tot

/-- For a count below `2^31` the two are one extended real. -/
theorem loss_bridge (tot : EReal) {N : ℕ} (hN : N < 2 ^ 31) :
    lossI tot (BitVec.ofNat 32 N) = lossF tot (((N : ℕ) : ℝ) : EReal) := by
  have hI : (BitVec.ofNat 32 N).toInt = (N : ℤ) := Words.toInt_ofNat_of_lt hN
  unfold lossI lossF
  rcases Nat.eq_zero_or_pos N with h0 | hpos
  · subst h0
    have e1 : IntOp.cmpi .sgt (BitVec.ofNat 32 0) 0#32 = 0#1 := by decide
    have e2 : Ideal.cmp .ogt (((0 : ℕ) : ℝ) : EReal) 0 = 0#1 := by simp [Ideal.cmp]
    rw [e1, e2]
    rfl
  · have e1 : IntOp.cmpi .sgt (BitVec.ofNat 32 N) 0#32 = 1#1 := by
      show BitVec.ofBool ((0#32).slt (BitVec.ofNat 32 N)) = 1#1
      have : (0#32).slt (BitVec.ofNat 32 N) = true := by
        rw [BitVec.slt, hI]; simpa using hpos
      rw [this]; rfl
    have e2 : Ideal.cmp .ogt (((N : ℕ) : ℝ) : EReal) 0 = 1#1 := by
      have : (0 : EReal) < (((N : ℕ) : ℝ) : EReal) := by exact_mod_cast hpos
      simp [Ideal.cmp, hpos]
    have e3 : (IntOp.maxsi (BitVec.ofNat 32 N) 1#32).toInt = (N : ℤ) := by
      unfold IntOp.maxsi
      by_cases h1 : (1#32).slt (BitVec.ofNat 32 N) = true
      · rw [if_pos h1, hI]
      · rw [if_neg h1]
        have h1' : ¬ ((1 : ℤ) < (N : ℤ)) := by
          intro hlt; apply h1; rw [BitVec.slt, hI]; simpa using hlt
        have : N = 1 := by omega
        subst this; decide
    have e4 : max (((N : ℕ) : ℝ) : EReal) 1 = (((N : ℕ) : ℝ) : EReal) := by
      apply max_eq_left
      have : (1 : ℝ) ≤ ((N : ℕ) : ℝ) := by exact_mod_cast hpos
      exact_mod_cast this
    rw [e1, e2, e3, e4, Int.cast_natCast]

end Cert.Lib.MaskedMean

end
-- ==== Proof.Spec.lean ====
/-
  The loss both programs compute, as one function of per-row quantities over the extended reals.

  For a row `g` of logits, `rowMax g` is its maximum (taken from `-∞`), `rowSum g` the sum of `exp (g c - rowMax g)`, and the
  log-probability of an entry `a` of the row is `a - (rowMax g + log (rowSum g))`; subtracting the maximum first and the
  logarithm after gives the same number as soon as the maximum is a real number, which it is for a non-empty row of
  real numbers. A row is kept when `exp` of its target's log-probability is below the threshold word; a kept row
  contributes minus its log-probability to the total and one to the count, and the loss is the total divided by the count
  clamped below by one when the count is positive, else the total.
-/
import Idealize.ShloMosaic.PureOps.Ideal
import proofs.«181233_j69595650064809_2_alg».proof.Proof.LibMaskedMean

noncomputable section

open scoped BigOperators

namespace Cert.Spec

open Idealize.ShloMosaic Cert.Lib

/-- The f32 word of `-∞` is the bottom of the extended reals. -/
theorem negInf_word : Ideal.ofBits .f32 0xFF800000#32 = (⊥ : EReal) := by simp [Ideal.ofBits, Ideal.ieee]

/-- The f32 quiet-NaN word reads as the bottom of the extended reals (there is no NaN among them). -/
theorem nan_word : Ideal.ofBits .f32 0x7FC00000#32 = (⊥ : EReal) := by simp [Ideal.ofBits, Ideal.ieee]

/-- The maximum of a row, taken from the word of `-∞`. -/
def rowMax {K : ℕ} (g : Fin K → EReal) : EReal :=
  (Finset.univ : Finset (Fin K)).fold max (Ideal.ofBits .f32 0xFF800000#32) g

/-- The sum over the row of the exponentials shifted by the row's maximum. -/
def rowSum {K : ℕ} (g : Fin K → EReal) : EReal := ∑ c, Ideal.exp (g c - rowMax g)

/-- The log-probability of entry `a` of row `g`: the whole logsumexp subtracted at once. -/
def logpK {K : ℕ} (a : EReal) (g : Fin K → EReal) : EReal := a - (rowMax g + Ideal.log (rowSum g))

/-- The same with the maximum subtracted first and the logarithm of the sum after. -/
def logpR {K : ℕ} (a : EReal) (g : Fin K → EReal) : EReal := a - rowMax g - Ideal.log (rowSum g)

/-- The maximum of a non-empty row of real numbers is a real number. -/
theorem rowMax_real {K : ℕ} (g : Fin K → EReal) (hK : 0 < K) (h : ∀ c, g c ≠ ⊥ ∧ g c ≠ ⊤) :
    rowMax g ≠ ⊥ ∧ rowMax g ≠ ⊤ := by
  unfold rowMax
  rw [negInf_word]
  exact ⟨MaskedMean.fold_max_ne_bot _ g ⟨0, hK⟩ (Finset.mem_univ _) (h _).1,
    MaskedMean.fold_max_ne_top _ g fun c _ => (h c).2⟩

/-- The two spellings of the log-probability agree on a non-empty row of real numbers, whatever the entry. -/
theorem logpK_eq_logpR {K : ℕ} (a : EReal) (g : Fin K → EReal) (hK : 0 < K) (h : ∀ c, g c ≠ ⊥ ∧ g c ≠ ⊤) :
    logpK a g = logpR a g :=
  MaskedMean.sub_add_of_real a _ _ (rowMax_real g hK h).1 (rowMax_real g hK h).2

/-- With `⊥` for the entry the first spelling is `⊥`, on any row. -/
theorem logpK_bot {K : ℕ} (g : Fin K → EReal) : logpK ⊥ g = ⊥ := MaskedMean.bot_sub _

/-- A row is kept when the probability of its target is below the threshold word `0x3F4CCCCD`. -/
def keep (l : EReal) : BitVec 1 := Ideal.cmp .olt (Ideal.exp l) (Ideal.ofBits .f32 0x3F4CCCCD#32)

/-- A kept row's cross entropy, zero for a row not kept. -/
def ce (l : EReal) : EReal := Scalar.select (keep l) (-l) (Ideal.ofBits .f32 0x00000000#32)

/-- A row's contribution to the count: its flag widened to 32 bits and read as a signed integer. -/
def cntF (l : EReal) : EReal := ((((keep l).setWidth 32).toInt : ℝ) : EReal)

/-- The loss of a batch of `B` rows with target log-probabilities `l`. -/
def loss {B : ℕ} (l : Fin B → EReal) : EReal := MaskedMean.lossF (∑ r, ce (l r)) (∑ r, cntF (l r))

end Cert.Spec

end
-- ==== Proof.LibRowMax.lean ====
/-
  General lemmas about a row-wise maximum over the extended reals.
-/
import Idealize.ShloMosaic.Lib.Pipeline.Value
import Idealize.ShloMosaic.Lib.ValueIdx
import Idealize.ShloMosaic.PureOps.Ideal.Laws

noncomputable section

namespace Cert.Lib.RowMax

open Idealize.ShloMosaic Idealize.ShloMosaic.ValueIdx

/-- A maximum along the lanes of an `n × k` array taken from the word of `-∞` reads, at row `r`, the fold of `max` from
    that word over the row's `k` entries (in any order: `max` commutes and associates). -/
theorem laneMax_apply {n k : ℕ} (src : FVec Ideal ⟨2, ![n, k]⟩ .f32) (h : (⟨2, ![n, k]⟩ : Shape).Reduces [1] ⟨1, ![n]⟩)
    (hφ : FKind.Formats .f32) (hacc : (0xFF800000#32 : BitVec 32) = 0xFF800000#32) (r : Fin n) :
    multiReduction .maximumf [1] ⟨1, ![n]⟩ src 0xFF800000#32 h hφ hacc (ix1 r)
      = (Finset.univ : Finset (Fin k)).fold max (Ideal.ofBits .f32 0xFF800000#32) (fun c => src (ix2 r c)) := by
  refine (Ideal.multiReduction_maximumf_single src 0xFF800000#32 h hφ hacc (ix1 r)).trans ?_
  refine congrArg (fun f => (Finset.univ : Finset (Fin k)).fold max (Ideal.ofBits .f32 0xFF800000#32) f) (funext fun c => ?_)
  exact congrArg src (funext fun ax => Fin.ext (by
    match ax with
    | ⟨0, _⟩ => rfl
    | ⟨1, _⟩ => rfl))

/-- The exponential of a vector read at an entry. -/
theorem exp_apply {s : Shape} {φ : FTy} (x : FVec Ideal s φ) (i : s.Idx) : exp x i = Ideal.exp (x i) := rfl

/-- The host's exponential of a vector read at an entry: the same function. -/
theorem hostExp_apply {s : Shape} {φ : FTy} (x : FVec Ideal s φ) (i : s.Idx) : Host.exp x i = Ideal.exp (x i) := rfl

/-- The word `0xFF800000` is the bottom of the extended reals, so a maximum against it is the other operand. -/
theorem max_negInf (y : EReal) : max (Ideal.ofBits .f32 0xFF800000#32) y = y := by
  have h : Ideal.ofBits .f32 0xFF800000#32 = (⊥ : EReal) := by simp [Ideal.ofBits, Ideal.ieee]
  rw [h, max_eq_right bot_le]

end Cert.Lib.RowMax

end
-- ==== Proof.LibRowOps.lean ====
/-
  Two readings, at an entry, of operations on the rows of a matrix, for any sizes.

  A sum along the lanes of an `n × k` array gives one number per row: at row `r` it is the sum of that row's `k`
  entries.  An `a × 1` column spread over `b` lanes repeats each row's one entry along the row: at `(p, c)` it reads
  the column's entry of row `p`, whatever the lane `c` (also when `a = 1`).
-/
import Idealize.ShloMosaic.Lib.Pipeline.Value
import Idealize.ShloMosaic.Lib.ValueIdx
import Idealize.ShloMosaic.PureOps.Ideal.Laws

noncomputable section

open scoped BigOperators

namespace Cert.Lib.RowOps

open Idealize.ShloMosaic Idealize.ShloMosaic.ValueIdx

/-- A sum along the lanes of an `n × k` array from the zero word reads, at row `r`, the sum of that row's entries. -/
theorem laneSum_apply {n k : ℕ} (src : FVec Ideal ⟨2, ![n, k]⟩ .f32) (h : (⟨2, ![n, k]⟩ : Shape).Reduces [1] ⟨1, ![n]⟩)
    (hφ : FKind.Formats .f32) (hacc : (0x00000000#32 : BitVec 32) = 0x00000000#32) (r : Fin n) :
    multiReduction .add [1] ⟨1, ![n]⟩ src 0x00000000#32 h hφ hacc (ix1 r) = ∑ c : Fin k, src (ix2 r c) := by
  refine (Ideal.multiReduction_add_single src 0x00000000#32 h hφ hacc (ix1 r)).trans ?_
  exact Finset.sum_congr rfl fun c _ => congrArg src (funext fun ax => Fin.ext (by
    match ax with
    | ⟨0, _⟩ => rfl
    | ⟨1, _⟩ => rfl))

/-- An `a × 1` column spread over `b` lanes reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.RowOps

end
-- ==== Proof.LibKeepdims.lean ====
/-
  Sums that keep a unit axis, read at an entry, for any length.

  A sum along the lanes of an `n × k` block gives a length-`n` vector; kept as an `n × 1` column it is summed again, down
  the column, into a one-entry vector, which is kept as a `1 × 1` cell. Each re-shaping moves no entry: position `r` of
  the vector is entry `(r, 0)` of the column, and the one entry of the one-entry vector is the one entry of the cell. The
  column sum at its one result entry is the sum of the column's `n` entries.
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- A length-`a` vector kept as an `a × 1` column reads, at `(r, u)`, the vector at `r`. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) := by
  refine shapeCast_apply x h (ix2 r u) (ix1 r) ?_
  rw [Shape.rowMajor_val_one, Shape.rowMajor_val_two]
  show r.val = r.val * 1 + u.val
  have := u.isLt
  omega

/-- A one-entry vector kept as a `1 × 1` cell reads, at the cell's entry, the vector's entry. -/
theorem shapeCast_1_11_apply (x : (⟨1, ![1]⟩ : Shape).Idx → α)
    (h : (⟨1, ![1]⟩ : Shape).ShapeCasts ⟨2, ![1, 1]⟩) (j : (⟨2, ![1, 1]⟩ : Shape).Idx) :
    shapeCast ⟨2, ![1, 1]⟩ x h j = x (ix1 (0 : Fin 1)) := by
  refine shapeCast_apply x h j (ix1 (0 : Fin 1)) ?_
  rw [Shape.rowMajor_val_one, Shape.rowMajor_val_two]
  show (0 : ℕ) = (j 0).val * 1 + (j 1).val
  have h0 : (j 0).val < 1 := (j 0).isLt
  have h1 : (j 1).val < 1 := (j 1).isLt
  omega

/-- A `1 × 1` cell flattened to a scalar reads the cell's entry. -/
theorem shapeCast_11_scalar_apply (x : (⟨2, ![1, 1]⟩ : Shape).Idx → α)
    (h : (⟨2, ![1, 1]⟩ : Shape).ShapeCasts ⟨0, ![]⟩) (j : (⟨0, ![]⟩ : Shape).Idx) :
    shapeCast ⟨0, ![]⟩ x h j = x (ix2 (0 : Fin 1) (0 : Fin 1)) := by
  refine shapeCast_apply x h j (ix2 (0 : Fin 1) (0 : Fin 1)) ?_
  rw [Shape.rowMajor_val_two]
  show (0 : ℕ) * 1 + 0 = _
  have := ((⟨0, ![]⟩ : Shape).rowMajor j).isLt
  have hn : (⟨0, ![]⟩ : Shape).numel = 1 := rfl
  omega

/-- The index of an `n × 1` column over the one result entry with the row `r` put back. -/
theorem lift_col {n : ℕ} (h : (⟨2, ![n, 1]⟩ : Shape).Reduces [0] ⟨1, ![1]⟩) (j : (⟨1, ![1]⟩ : Shape).Idx) (r : Fin n) :
    h.lift j r = ix2 r (0 : Fin 1) := by
  funext ax; apply Fin.ext
  match ax with
  | ⟨0, _⟩ => rfl
  | ⟨1, _⟩ =>
    show (j 0).val = 0
    have : (j 0).val < 1 := (j 0).isLt
    omega

/-- An f32 sum down an `n × 1` column from the zero word reads, at its one entry, the sum of the column's entries. -/
theorem colSum_f32_apply {n : ℕ} (src : FVec Ideal ⟨2, ![n, 1]⟩ .f32)
    (h : (⟨2, ![n, 1]⟩ : Shape).Reduces [0] ⟨1, ![1]⟩) (hφ : FKind.Formats .f32)
    (hacc : (0x00000000#32 : BitVec 32) = 0x00000000#32) (j : (⟨1, ![1]⟩ : Shape).Idx) :
    multiReduction .add [0] ⟨1, ![1]⟩ src 0x00000000#32 h hφ hacc j = ∑ r : Fin n, src (ix2 r (0 : Fin 1)) := by
  refine (Ideal.multiReduction_add_single src 0x00000000#32 h hφ hacc j).trans ?_
  exact Finset.sum_congr rfl fun r _ => congrArg src (lift_col h j r)

end Cert.Lib.Keepdims

end
-- ==== Proof.LibRefReads.lean ====
/-
  Layout facts of the reference's spelling, read at an entry, for any element type, and two facts about the extended
  reals' reading of float words:
  * gate g's 2×32×32 pair of weights cut out of the 3×2×32×32 array and flattened, then order t's 32×32 matrix cut out of
    the pair and flattened: entry (k, j) is the weight at (g, t, k, j);
  * the float word 0x3F800000 is the number 1;
  * the soft-plus form with its exponent written 0 − |t − 0| is the one with the exponent written −|t − 0|.
-/
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Lib.RefReads

open Idealize.ShloMosaic Idealize.ShloMosaic.ValueIdx

variable {α : Type}

/-- One gate's, one order's 32×32 weight out of the 3×2×32×32 array, cut in two steps. -/
theorem wslice2_apply (A : (⟨4, ![3, 2, 32, 32]⟩ : Shape).Idx → α) (g t : ℕ) (hg : g < 3) (ht : t < 2)
    (hs1 : (⟨4, ![3, 2, 32, 32]⟩ : Shape).Slices ![g, 0, 0, 0] ⟨4, ![1, 2, 32, 32]⟩)
    (hc1 : (⟨4, ![1, 2, 32, 32]⟩ : Shape).ShapeCasts ⟨3, ![2, 32, 32]⟩)
    (hs2 : (⟨3, ![2, 32, 32]⟩ : Shape).Slices ![t, 0, 0] ⟨3, ![1, 32, 32]⟩)
    (hc2 : (⟨3, ![1, 32, 32]⟩ : Shape).ShapeCasts ⟨2, ![32, 32]⟩) (k j : Fin 32) :
    shapeCast ⟨2, ![32, 32]⟩ (extractStridedSlice ⟨3, ![1, 32, 32]⟩ ![t, 0, 0]
        (shapeCast ⟨3, ![2, 32, 32]⟩ (extractStridedSlice ⟨4, ![1, 2, 32, 32]⟩ ![g, 0, 0, 0] A hs1) hc1) hs2) hc2 (ix2 k j)
      = A (ix4 (⟨g, hg⟩ : Fin 3) (⟨t, ht⟩ : Fin 2) k j) := by
  refine (shapeCast_apply _ hc2 (ix2 k j) (ix3 (0 : Fin 1) k j) ?_).trans ?_
  · rw [Shape.rowMajor_val_three, Shape.rowMajor_val_two]
    show (0 * 32 + k.val) * 32 + j.val = k.val * 32 + j.val
    omega
  refine (extractStridedSlice_apply _ _ hs2 _ (ix3 (⟨t, ht⟩ : Fin 2) k j) fun b => ?_).trans ?_
  · match b with
    | ⟨0, _⟩ => show t = t + 0; omega
    | ⟨1, _⟩ => show k.val = 0 + k.val; omega
    | ⟨2, _⟩ => show j.val = 0 + j.val; omega
  refine (shapeCast_apply _ hc1 (ix3 (⟨t, ht⟩ : Fin 2) k j) (ix4 (0 : Fin 1) (⟨t, ht⟩ : Fin 2) k j) ?_).trans ?_
  · rw [Shape.rowMajor_val_four, Shape.rowMajor_val_three]
    show ((0 * 2 + t) * 32 + k.val) * 32 + j.val = (t * 32 + k.val) * 32 + j.val
    omega
  refine extractStridedSlice_apply _ A hs1 _ (ix4 (⟨g, hg⟩ : Fin 3) (⟨t, ht⟩ : Fin 2) k j) fun b => ?_
  match b with
  | ⟨0, _⟩ => show g = g + 0; omega
  | ⟨1, _⟩ => show t = 0 + t; omega
  | ⟨2, _⟩ => show k.val = 0 + k.val; omega
  | ⟨3, _⟩ => show j.val = 0 + j.val; omega

/-- The float word 0x3F800000 read exactly is 1. -/
theorem one_f32 : Ideal.ofBits .f32 0x3F800000#32 = 1 := by
  simp [Ideal.ofBits, Ideal.ieee, -EReal.coe_mul]
  norm_num

/-- On the extended reals 0 − y is −y. -/
theorem zero_word_sub (y : EReal) : Ideal.ofBits .f32 0x00000000#32 - y = -y := by
  rw [Ideal.ofBits_zero_f32, zero_sub]

end Cert.Lib.RefReads

end
-- ==== Proof.KernelPayload.lean ====
/-
  The kernel body's arithmetic read at an entry, over the extended reals.

  One grid point sees a block `x0` of 32 rows of 50257 logits and the column `x1` of the 32 gathered target logits. Row `r`
  of the block gives the target's log-probability `logpK (x1 r) (row r)`; the body adds, to every lane of the running
  total, the sum over the 32 rows of the kept rows' cross entropies, and to every lane of the running count the sum over
  the rows of the flags read as numbers.
-/
import proofs.«181233_j69595650064809_2_alg».proof.Proof.Gen.KernelIdeal.Skeleton
import proofs.«181233_j69595650064809_2_alg».proof.Proof.Spec
import proofs.«181233_j69595650064809_2_alg».proof.Proof.LibRowMax
import proofs.«181233_j69595650064809_2_alg».proof.Proof.LibRowOps
import proofs.«181233_j69595650064809_2_alg».proof.Proof.LibKeepdims
import proofs.«181233_j69595650064809_2_alg».proof.Proof.LibRefReads
import Idealize.ShloMosaic.Lib.ValueIdx
import Idealize.ShloMosaic.Lib.Pipeline.Value
import Idealize.ShloMosaic.Lib.ValueLayout

noncomputable section

open scoped BigOperators

namespace Cert.KernelIdeal.Payload

open Cert.KernelIdeal Cert.KernelIdeal.Gen
open Idealize.ShloMosaic Idealize.ShloMosaic.ValueIdx Cert.Lib Cert.Spec

/-- Row `r` of a block of logits. -/
abbrev brow (x0 : FVec Ideal S32x50257 .f32) (r : Fin 32) : Fin 50257 → EReal := fun c => x0 (ix2 r c)

/-- The target's log-probability of row `r` of a block. -/
abbrev blogp (x0 : FVec Ideal S32x50257 .f32) (x1 : FVec Ideal S32x1 .f32) (r : Fin 32) : EReal :=
  logpK (x1 (ix2 r (0 : Fin 1))) (brow x0 r)

theorem log_apply {s : Shape} {φ : FTy} (x : FVec Ideal s φ) (i : s.Idx) : log x i = Ideal.log (x i) := rfl

/-- The lane maximum kept as a column reads the row's maximum. -/
theorem max_col (x0 : FVec Ideal S32x50257 .f32) (r : Fin 32) :
    shapeCast S32x1 (multiReduction .maximumf [1] S32 x0 0xFF800000#32 reduces_S32x50257_S32 (.inl rfl) rfl)
      shapeCasts_S32_S32x1 (ix2 r (0 : Fin 1)) = rowMax (brow x0 r) :=
  (Keepdims.shapeCast_a_a1_apply _ shapeCasts_S32_S32x1 r 0).trans
    (RowMax.laneMax_apply x0 reduces_S32x50257_S32 (.inl rfl) rfl r)

/-- The lane sum kept as a column reads the sum of the row. -/
theorem sum_col (y : FVec Ideal S32x50257 .f32) (r : Fin 32) :
    shapeCast S32x1 (multiReduction .add [1] S32 y 0x00000000#32 reduces_S32x50257_S32 (.inl rfl) rfl)
      shapeCasts_S32_S32x1 (ix2 r (0 : Fin 1)) = ∑ c : Fin 50257, y (ix2 r c) :=
  (Keepdims.shapeCast_a_a1_apply _ shapeCasts_S32_S32x1 r 0).trans
    (RowOps.laneSum_apply y reduces_S32x50257_S32 (.inl rfl) rfl r)

/-- A column spread over the lanes reads the column's entry of the row. -/
theorem spread_col (v : FVec Ideal S32x1 .f32) (r : Fin 32) (c : Fin 50257) :
    broadcastTo S32x50257 v broadcasts_S32x1_S32x50257 (ix2 r c) = v (ix2 r (0 : Fin 1)) :=
  RowOps.broadcastTo_a1_ab_apply v broadcasts_S32x1_S32x50257 r c

/-- The block's row maxima, kept as a column: the first stage of the body's arithmetic. -/
def colMax (x0 : FVec Ideal S32x50257 .f32) : FVec Ideal S32x1 .f32 :=
  shapeCast S32x1 (multiReduction .maximumf [1] S32 x0 0xFF800000#32 reduces_S32x50257_S32 (.inl rfl) rfl) shapeCasts_S32_S32x1

/-- The block's row sums of shifted exponentials, kept as a column: the second stage. -/
def colSum (x0 : FVec Ideal S32x50257 .f32) : FVec Ideal S32x1 .f32 :=
  shapeCast S32x1 (multiReduction .add [1] S32 (exp (subf x0 (broadcastTo S32x50257 (colMax x0) broadcasts_S32x1_S32x50257)))
    0x00000000#32 reduces_S32x50257_S32 (.inl rfl) rfl) shapeCasts_S32_S32x1

/-- The body's log-probability column is the gathered column less the maxima plus the logarithms of the sums. -/
theorem pay4_eq (x0 : FVec Ideal S32x50257 .f32) (x1 : FVec Ideal S32x1 .f32) :
    k0_pay4 (F := Ideal) x0 x1 = subf (shapeCast S32x1 x1 shapeCasts_S32x1_S32x1) (addf (colMax x0) (log (colSum x0))) := rfl

theorem colMax_apply (x0 : FVec Ideal S32x50257 .f32) (r : Fin 32) : colMax x0 (ix2 r (0 : Fin 1)) = rowMax (brow x0 r) :=
  max_col x0 r

theorem colSum_apply (x0 : FVec Ideal S32x50257 .f32) (r : Fin 32) : colSum x0 (ix2 r (0 : Fin 1)) = rowSum (brow x0 r) :=
  (sum_col _ r).trans (Finset.sum_congr rfl fun c _ => congrArg Ideal.exp
    (congrArg (fun b : EReal => x0 (ix2 r c) - b) ((spread_col (colMax x0) r c).trans (colMax_apply x0 r))))

attribute [irreducible] colMax colSum

/-- The body's log-probability column at row `r`. -/
theorem pay4_apply (x0 : FVec Ideal S32x50257 .f32) (x1 : FVec Ideal S32x1 .f32) (r : Fin 32) :
    k0_pay4 (F := Ideal) x0 x1 (ix2 r (0 : Fin 1)) = blogp x0 x1 r := by
  rw [pay4_eq, subf_apply, addf_apply, log_apply, colMax_apply, colSum_apply, shapeCast_self]
  rfl

/-- The body's keep flag at row `r`. -/
theorem pay5_apply (x0 : FVec Ideal S32x50257 .f32) (x1 : FVec Ideal S32x1 .f32) (r : Fin 32) :
    k0_pay5 (F := Ideal) x0 x1 (ix2 r (0 : Fin 1)) = keep (blogp x0 x1 r) := by
  rw [show k0_pay5 (F := Ideal) x0 x1
      = cmpf .olt (exp (k0_pay4 (F := Ideal) x0 x1)) (broadcast S32x1 (Scalar.ofBits (F := Ideal) .f32 0x3F4CCCCD#32)) from rfl,
    cmpf_apply, RowMax.exp_apply, broadcast_apply, pay4_apply]
  rfl

/-- The block's total: the kept rows' cross entropies summed over its 32 rows. -/
def blockTotal (x0 : FVec Ideal S32x50257 .f32) (x1 : FVec Ideal S32x1 .f32) : EReal := ∑ r : Fin 32, ce (blogp x0 x1 r)

/-- The block's count: its rows' flags read as numbers and summed. -/
def blockCount (x0 : FVec Ideal S32x50257 .f32) (x1 : FVec Ideal S32x1 .f32) : EReal := ∑ r : Fin 32, cntF (blogp x0 x1 r)

/-- A one-entry value kept as `1 × 1`, then as `1 × 1 × 1`, then spread over 128 lanes, reads its one entry everywhere. -/
theorem spread_cell (v : FVec Ideal S1 .f32) (j : S1x1x128.Idx) :
    broadcastTo S1x1x128 (shapeCast S1x1x1 (shapeCast S1x1x1 (shapeCast S1x1 v shapeCasts_S1_S1x1) shapeCasts_S1x1_S1x1x1)
      shapeCasts_S1x1x1_S1x1x1) broadcasts_S1x1x1_S1x1x128 j = v (ix1 (0 : Fin 1)) := by
  rw [shapeCast_self]
  refine (broadcastTo_apply _ broadcasts_S1x1x1_S1x1x128 j (ix3 (0 : Fin 1) (0 : Fin 1) (0 : Fin 1)) fun a => ?_).trans ?_
  · match a with
    | ⟨0, _⟩ => rfl
    | ⟨1, _⟩ => rfl
    | ⟨2, _⟩ => rfl
  refine (shapeCast_apply _ shapeCasts_S1x1_S1x1x1 _ (ix2 (0 : Fin 1) (0 : Fin 1)) ?_).trans ?_
  · rw [Shape.rowMajor_val_two, Shape.rowMajor_val_three]
    rfl
  exact Keepdims.shapeCast_1_11_apply v shapeCasts_S1_S1x1 _

/-- The masked cross entropies of the block's rows, as the body forms them. -/
def maskedCol (x0 : FVec Ideal S32x50257 .f32) (x1 : FVec Ideal S32x1 .f32) : FVec Ideal S32x1 .f32 :=
  select (k0_pay5 (F := Ideal) x0 x1)
    (subf (broadcast S32x1 (Scalar.ofBits (F := Ideal) .f32 0x00000000#32)) (k0_pay4 (F := Ideal) x0 x1))
    (broadcast S32x1 (Scalar.ofBits (F := Ideal) .f32 0x00000000#32))

theorem maskedCol_apply (x0 : FVec Ideal S32x50257 .f32) (x1 : FVec Ideal S32x1 .f32) (r : Fin 32) :
    maskedCol x0 x1 (ix2 r (0 : Fin 1)) = ce (blogp x0 x1 r) := by
  unfold maskedCol
  rw [select_apply, subf_apply, broadcast_apply, pay5_apply, pay4_apply]
  exact congrArg (fun v => Scalar.select _ v _) (RefReads.zero_word_sub _)

/-- The flags of the block's rows as numbers, as the body forms them. -/
def flagCol (x0 : FVec Ideal S32x50257 .f32) (x1 : FVec Ideal S32x1 .f32) : FVec Ideal S32x1 .f32 :=
  sitofp .f32 (extui 32 (k0_pay5 (F := Ideal) x0 x1) natLt_1_32)

theorem flagCol_apply (x0 : FVec Ideal S32x50257 .f32) (x1 : FVec Ideal S32x1 .f32) (r : Fin 32) :
    flagCol x0 x1 (ix2 r (0 : Fin 1)) = cntF (blogp x0 x1 r) := by
  unfold flagCol
  rw [sitofp_apply, extui_apply, pay5_apply]
  rfl

/-- The total's new contents are the old ones plus the lane-spread column sum of the masked cross entropies, -/
theorem pay7_eq (x0 : FVec Ideal S32x50257 .f32) (x1 : FVec Ideal S32x1 .f32) (acc : FVec Ideal S1x1x128 .f32) :
    k0_pay7 (F := Ideal) x0 x1 acc = addf (shapeCast S1x1x128 acc shapeCasts_S1x1x128_S1x1x128)
      (broadcastTo S1x1x128 (shapeCast S1x1x1 (shapeCast S1x1x1 (shapeCast S1x1
        (multiReduction .add [0] S1 (maskedCol x0 x1) 0x00000000#32 reduces_S32x1_S1 (.inl rfl) rfl)
        shapeCasts_S1_S1x1) shapeCasts_S1x1_S1x1x1) shapeCasts_S1x1x1_S1x1x1) broadcasts_S1x1x1_S1x1x128) := rfl

/-- and the count's the old ones plus the lane-spread column sum of the flags. -/
theorem pay1_pay6_eq (x0 : FVec Ideal S32x50257 .f32) (x1 : FVec Ideal S32x1 .f32) (acc : FVec Ideal S1x1x128 .f32) :
    k0_pay1 (F := Ideal) (k0_pay6 x0 x1) acc = addf (shapeCast S1x1x128 acc shapeCasts_S1x1x128_S1x1x128)
      (broadcastTo S1x1x128 (shapeCast S1x1x1 (shapeCast S1x1x1 (shapeCast S1x1
        (multiReduction .add [0] S1 (flagCol x0 x1) 0x00000000#32 reduces_S32x1_S1 (.inl rfl) rfl)
        shapeCasts_S1_S1x1) shapeCasts_S1x1_S1x1x1) shapeCasts_S1x1x1_S1x1x1) broadcasts_S1x1x1_S1x1x128) := rfl

/-- The total's new contents: every lane gains the block's total. -/
theorem pay7_apply (x0 : FVec Ideal S32x50257 .f32) (x1 : FVec Ideal S32x1 .f32) (acc : FVec Ideal S1x1x128 .f32)
    (j : S1x1x128.Idx) : k0_pay7 (F := Ideal) x0 x1 acc j = acc j + blockTotal x0 x1 := by
  rw [pay7_eq]
  rw [addf_apply, shapeCast_self, spread_cell, Keepdims.colSum_f32_apply _ reduces_S32x1_S1 (.inl rfl) rfl]
  exact congrArg (fun b : EReal => acc j + b) (Finset.sum_congr rfl fun r _ => maskedCol_apply x0 x1 r)

/-- The count's new contents: every lane gains the block's count. -/
theorem pay1_pay6_apply (x0 : FVec Ideal S32x50257 .f32) (x1 : FVec Ideal S32x1 .f32) (acc : FVec Ideal S1x1x128 .f32)
    (j : S1x1x128.Idx) : k0_pay1 (F := Ideal) (k0_pay6 x0 x1) acc j = acc j + blockCount x0 x1 := by
  rw [pay1_pay6_eq]
  rw [addf_apply, shapeCast_self, spread_cell, Keepdims.colSum_f32_apply _ reduces_S32x1_S1 (.inl rfl) rfl]
  exact congrArg (fun b : EReal => acc j + b) (Finset.sum_congr rfl fun r _ => flagCol_apply x0 x1 r)

/-- The zero block stored at a core's first point reads the zero word. -/
theorem pay2_apply (j : S1x1x128.Idx) : k0_pay2 (F := Ideal) j = Ideal.ofBits .f32 0x00000000#32 := rfl
theorem pay3_apply (j : S1x1x128.Idx) : k0_pay3 (F := Ideal) j = Ideal.ofBits .f32 0x00000000#32 := rfl

end Cert.KernelIdeal.Payload

end
-- ==== Proof.KernelAcc.lean ====
/-
  What the two running buffers hold after each grid point, over the extended reals.

  The grid's 128 points run in order; point `n` belongs to core `n / 64`. A running buffer is reset to zero at a core's
  first point and gains the block's contribution at every point, so after point `n` every lane holds the sum of the
  contributions of the core's points up to `n`.
-/
import proofs.«181233_j69595650064809_2_alg».proof.Proof.KernelBody
import proofs.«181233_j69595650064809_2_alg».proof.Proof.KernelPayload

set_option maxRecDepth 16384

noncomputable section

open scoped BigOperators

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.Body Cert.KernelIdeal.Payload
open Idealize.ShloMosaic.ValueIdx Cert.Spec

/-! ## A running sum that restarts every 64 points -/

/-- The running sum of contributions `P`, restarted from the zero word at every multiple of 64. -/
def running {N : ℕ} (P : (n : ℕ) → n < N → EReal) : (n : ℕ) → n < N → EReal
  | 0, h => Ideal.ofBits .f32 0x00000000#32 + P 0 h
  | n + 1, h => (if (n + 1) % 64 = 0 then Ideal.ofBits .f32 0x00000000#32 else running P n (Nat.lt_of_succ_lt h)) + P (n + 1) h

/-- The contributions extended by zero past the last point. -/
def ext {N : ℕ} (P : (n : ℕ) → n < N → EReal) (n : ℕ) : EReal := if h : n < N then P n h else 0

theorem ext_of_lt {N : ℕ} (P : (n : ℕ) → n < N → EReal) (n : ℕ) (h : n < N) : ext P n = P n h := dif_pos h

/-- After point `n` the running sum is the sum of the contributions from the last multiple of 64 up to `n`. -/
theorem running_eq {N : ℕ} (P : (n : ℕ) → n < N → EReal) : ∀ (n : ℕ) (h : n < N),
    running P n h = ∑ k ∈ Finset.range (n % 64 + 1), ext P (n - n % 64 + k)
  | 0, h => by
    show Ideal.ofBits .f32 0x00000000#32 + P 0 h = _
    rw [Ideal.ofBits_zero_f32, zero_add]
    simp [ext_of_lt P 0 h]
  | n + 1, h => by
    show (if (n + 1) % 64 = 0 then Ideal.ofBits .f32 0x00000000#32 else running P n (Nat.lt_of_succ_lt h)) + P (n + 1) h = _
    by_cases h0 : (n + 1) % 64 = 0
    · rw [if_pos h0, h0, Ideal.ofBits_zero_f32, zero_add]
      simp [ext_of_lt P (n + 1) h]
    · rw [if_neg h0, running_eq P n]
      have e1 : (n + 1) % 64 = n % 64 + 1 := by omega
      have e2 : (n + 1) - (n % 64 + 1) = n - n % 64 := by omega
      rw [e1, e2, Finset.sum_range_succ _ (n % 64 + 1)]
      refine congrArg (_ + ·) ?_
      have e3 : n - n % 64 + (n % 64 + 1) = n + 1 := by omega
      rw [e3, ext_of_lt P (n + 1) h]

/-! ## The two buffers after each point -/

variable (m : (ℓ : Loc nD τ sig) → Buf (Elt Ideal) ℓ)

/-- The contribution of point `n`'s block to the total, -/
def ptTotal (c : Dev nD) (n : ℕ) (h : n < cfg0.N) : EReal :=
  blockTotal (iblk m c 0 ⟨n, h⟩ : Vec Ideal S32x50257 .f32) (iblk m c 1 ⟨n, h⟩ : Vec Ideal S32x1 .f32)

/-- and to the count. -/
def ptCount (c : Dev nD) (n : ℕ) (h : n < cfg0.N) : EReal :=
  blockCount (iblk m c 0 ⟨n, h⟩ : Vec Ideal S32x50257 .f32) (iblk m c 1 ⟨n, h⟩ : Vec Ideal S32x1 .f32)

theorem tot_A (c : Dev nD) (i : grid0.Coords) (a2 : Memref sig .tc .vmem S32x50257 .f32) (h2 : a2.IsWhole)
    (a3 : Memref sig .tc .vmem S32x1 .f32) (h3 : a3.IsWhole) (a4 : Memref sig .tc .vmem S1x1x128 .f32) (h4 : a4.IsWhole)
    (a5 : Memref sig .tc .vmem S1x1x128 .f32) (h5 : a5.IsWhole) (hc : cond0_0 i)
    (x0 : Vec Ideal S32x50257 .f32) (x1 : Vec Ideal S32x1 .f32) :
    out0_A_2 (F := Ideal) c i a2 h2 a3 h3 a4 h4 a5 h5 hc x0 x1
      = fun _ => Ideal.ofBits .f32 0x00000000#32 + blockTotal x0 x1 :=
  (out_A_2 c i a2 h2 a3 h3 a4 h4 a5 h5 hc x0 x1).trans (funext fun j => pay7_apply x0 x1 _ j)

theorem cnt_A (c : Dev nD) (i : grid0.Coords) (a2 : Memref sig .tc .vmem S32x50257 .f32) (h2 : a2.IsWhole)
    (a3 : Memref sig .tc .vmem S32x1 .f32) (h3 : a3.IsWhole) (a4 : Memref sig .tc .vmem S1x1x128 .f32) (h4 : a4.IsWhole)
    (a5 : Memref sig .tc .vmem S1x1x128 .f32) (h5 : a5.IsWhole) (hc : cond0_0 i)
    (x0 : Vec Ideal S32x50257 .f32) (x1 : Vec Ideal S32x1 .f32) :
    out0_A_3 (F := Ideal) c i a2 h2 a3 h3 a4 h4 a5 h5 hc x0 x1
      = fun _ => Ideal.ofBits .f32 0x00000000#32 + blockCount x0 x1 :=
  (out_A_3 c i a2 h2 a3 h3 a4 h4 a5 h5 hc x0 x1).trans (funext fun j => pay1_pay6_apply x0 x1 _ j)

theorem tot_B (c : Dev nD) (i : grid0.Coords) (a2 : Memref sig .tc .vmem S32x50257 .f32) (h2 : a2.IsWhole)
    (a3 : Memref sig .tc .vmem S32x1 .f32) (h3 : a3.IsWhole) (a4 : Memref sig .tc .vmem S1x1x128 .f32) (h4 : a4.IsWhole)
    (a5 : Memref sig .tc .vmem S1x1x128 .f32) (h5 : a5.IsWhole) (hc : ¬cond0_0 i)
    (x0 : Vec Ideal S32x50257 .f32) (x1 : Vec Ideal S32x1 .f32) (xo2 xo3 : Vec Ideal S1x1x128 .f32) :
    out0_B_2 (F := Ideal) c i a2 h2 a3 h3 a4 h4 a5 h5 hc x0 x1 xo2 xo3 = fun j => xo2 j + blockTotal x0 x1 :=
  (out_B_2 c i a2 h2 a3 h3 a4 h4 a5 h5 hc x0 x1 xo2 xo3).trans (funext fun j => pay7_apply x0 x1 xo2 j)

theorem cnt_B (c : Dev nD) (i : grid0.Coords) (a2 : Memref sig .tc .vmem S32x50257 .f32) (h2 : a2.IsWhole)
    (a3 : Memref sig .tc .vmem S32x1 .f32) (h3 : a3.IsWhole) (a4 : Memref sig .tc .vmem S1x1x128 .f32) (h4 : a4.IsWhole)
    (a5 : Memref sig .tc .vmem S1x1x128 .f32) (h5 : a5.IsWhole) (hc : ¬cond0_0 i)
    (x0 : Vec Ideal S32x50257 .f32) (x1 : Vec Ideal S32x1 .f32) (xo2 xo3 : Vec Ideal S1x1x128 .f32) :
    out0_B_3 (F := Ideal) c i a2 h2 a3 h3 a4 h4 a5 h5 hc x0 x1 xo2 xo3 = fun j => xo3 j + blockCount x0 x1 :=
  (out_B_3 c i a2 h2 a3 h3 a4 h4 a5 h5 hc x0 x1 xo2 xo3).trans (funext fun j => pay1_pay6_apply x0 x1 xo3 j)

theorem running_zero {N : ℕ} (P : (n : ℕ) → n < N → EReal) (h : 0 < N) :
    running P 0 h = Ideal.ofBits .f32 0x00000000#32 + P 0 h := rfl

theorem running_succ {N : ℕ} (P : (n : ℕ) → n < N → EReal) (n : ℕ) (h : n + 1 < N) :
    running P (n + 1) h
      = (if (n + 1) % 64 = 0 then Ideal.ofBits .f32 0x00000000#32 else running P n (Nat.lt_of_succ_lt h)) + P (n + 1) h := rfl

/-- The two buffers after a point, as constant vectors of the two running sums. -/
def accAt (c : Dev nD) (n : ℕ) (h : n < cfg0.N) : Vec Ideal S1x1x128 .f32 × Vec Ideal S1x1x128 .f32 :=
  (fun _ => running (ptTotal m c) n h, fun _ => running (ptCount m c) n h)

/-- After point `n` every lane of the two buffers holds the running total and the running count. -/
theorem outsAt_eq (c : Dev nD) : ∀ (n : ℕ) (h : n < cfg0.N), outsAt0 m c n h = accAt m c n h
  | 0, h => by
    refine (outsAt0_A m c ⟨0, h⟩ rfl).trans (congrArg₂ Prod.mk ?_ ?_)
    · refine (tot_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        (ms0_3 ⟨0, h⟩) (hs0_3 ⟨0, h⟩) _ (iblk m c 0 ⟨0, h⟩) (iblk m c 1 ⟨0, h⟩)).trans ?_
      exact funext fun _ => (running_zero (ptTotal m c) h).symm
    · refine (cnt_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        (ms0_3 ⟨0, h⟩) (hs0_3 ⟨0, h⟩) _ (iblk m c 0 ⟨0, h⟩) (iblk m c 1 ⟨0, h⟩)).trans ?_
      exact funext fun _ => (running_zero (ptCount m c) h).symm
  | n + 1, h => by
    by_cases h0 : (n + 1) % 64 = 0
    · refine (outsAt0_A m c ⟨n + 1, h⟩ h0).trans (congrArg₂ Prod.mk ?_ ?_)
      · refine (tot_A c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) (ms0_3 ⟨n + 1, h⟩) (hs0_3 ⟨n + 1, h⟩) _ (iblk m c 0 ⟨n + 1, h⟩) (iblk m c 1 ⟨n + 1, h⟩)).trans ?_
        refine funext fun _ => ?_
        rw [running_succ, if_pos h0]
        rfl
      · refine (cnt_A c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) (ms0_3 ⟨n + 1, h⟩) (hs0_3 ⟨n + 1, h⟩) _ (iblk m c 0 ⟨n + 1, h⟩) (iblk m c 1 ⟨n + 1, h⟩)).trans ?_
        refine funext fun _ => ?_
        rw [running_succ, if_pos h0]
        rfl
    · have ih := outsAt_eq c n (Nat.lt_of_succ_lt h)
      refine (outsAt0_B m c ⟨n + 1, h⟩ h0).trans (congrArg₂ Prod.mk ?_ ?_)
      · refine (tot_B c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) (ms0_3 ⟨n + 1, h⟩) (hs0_3 ⟨n + 1, h⟩) _ (iblk m c 0 ⟨n + 1, h⟩) (iblk m c 1 ⟨n + 1, h⟩) _ _).trans ?_
        refine funext fun j => ?_
        rw [running_succ, if_neg h0]
        exact congrArg (fun b : EReal => b + ptTotal m c (n + 1) h) (congrFun (congrArg Prod.fst ih) j)
      · refine (cnt_B c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) (ms0_3 ⟨n + 1, h⟩) (hs0_3 ⟨n + 1, h⟩) _ (iblk m c 0 ⟨n + 1, h⟩) (iblk m c 1 ⟨n + 1, h⟩) _ _).trans ?_
        refine funext fun j => ?_
        rw [running_succ, if_neg h0]
        exact congrArg (fun b : EReal => b + ptCount m c (n + 1) h) (congrFun (congrArg Prod.snd ih) j)

end Cert.KernelIdeal.Acc

end
-- ==== Proof.KernelArrays.lean ====
/-
  The two output arrays after the region, and the blocks the region reads.

  Output block `q` (of two) is written back once, after the last point of core `q`; it then holds, in every lane, the sum
  of the contributions of that core's 64 points. Point `t` reads rows `32 t … 32 t + 31` of the logits and of the
  column of gathered target logits.
-/
import proofs.«181233_j69595650064809_2_alg».proof.Proof.KernelAcc

set_option maxRecDepth 16384

noncomputable section

open scoped BigOperators

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Body Cert.KernelIdeal.Payload Cert.KernelIdeal.Acc
open Idealize.ShloMosaic.ValueIdx Cert.Spec

variable (m : (ℓ : Loc nD τ sig) → Buf (Elt Ideal) ℓ)

/-- The printed index maps, decided over the grid: the input blocks advance with the point, the output blocks with the core. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 64 ∧ win0_2.index t (1 : Fin 3) = 0 ∧ win0_2.index t (2 : Fin 3) = 0
    ∧ win0_3.index t (0 : Fin 3) = t.val / 64 ∧ win0_3.index t (1 : Fin 3) = 0 ∧ win0_3.index t (2 : Fin 3) = 0 :=
  (by decide +kernel : ∀ t : Fin grid0.N, _)

/-- Core `q`'s sum of the 64 contributions `P`, at every lane of output block `q`. -/
def coreSum (P : (n : ℕ) → n < cfg0.N → EReal) (i : S2x1x128.Idx) : EReal :=
  ∑ k ∈ Finset.range 64, ext P ((i 0).val * 64 + k)

/-- The total's array after the region, -/
abbrev GT (c : Dev nD) : S2x1x128.Idx → EReal := coreSum (ptTotal m c)
/-- and the count's. -/
abbrev GC (c : Dev nD) : S2x1x128.Idx → EReal := coreSum (ptCount m c)

/-- At a core's last point the running sum is the core's whole sum. -/
theorem running_last (P : (n : ℕ) → n < cfg0.N → EReal) (t : Fin cfg0.N) (h63 : t.val % 64 = 63) (i : S2x1x128.Idx)
    (hi : (i 0).val = t.val / 64) : running P t.val t.isLt = coreSum P i := by
  rw [running_eq, h63]
  unfold coreSum
  have e : t.val - 63 = (i 0).val * 64 := by omega
  rw [e]

theorem flushed2_eq (c : Dev nD) (t : Fin cfg0.N) (hf : (cfg0.win 2).flush t = true) :
    (dats m 0 c).flushed 2 t = ((cfg0.win 2).blk t).view.read (Elt Ideal) (GT m c) := by
  have h63 : t.val % 64 = 63 := (flush0_2 t).mp hf
  show (cfg0.win 2).cut (grid0.coords t) ((dats m 0 c).after 2 t) = _
  rw [after0_2, outsAt_eq]
  obtain ⟨-, -, -, -, e0, -, -, -, -, -⟩ := idx_facts t
  funext j
  show running (ptTotal m c) t.val t.isLt = GT m c (((cfg0.win 2).blk t).view.emb j)
  refine running_last _ t h63 _ ?_
  show win0_2.index t (0 : Fin 3) * 1 + 1 * (j 0).val = t.val / 64
  have hj : (j 0).val < 1 := (j 0).isLt
  omega

theorem flushed3_eq (c : Dev nD) (t : Fin cfg0.N) (hf : (cfg0.win 3).flush t = true) :
    (dats m 0 c).flushed 3 t = ((cfg0.win 3).blk t).view.read (Elt Ideal) (GC m c) := by
  have h63 : t.val % 64 = 63 := (flush0_3 t).mp hf
  show (cfg0.win 3).cut (grid0.coords t) ((dats m 0 c).after 3 t) = _
  rw [after0_3, outsAt_eq]
  obtain ⟨-, -, -, -, -, -, -, e0, -, -⟩ := idx_facts t
  funext j
  show running (ptCount m c) t.val t.isLt = GC m c (((cfg0.win 3).blk t).view.emb j)
  refine running_last _ t h63 _ ?_
  show win0_3.index t (0 : Fin 3) * 1 + 1 * (j 0).val = t.val / 64
  have hj : (j 0).val < 1 := (j 0).isLt
  omega

/-- The last point of core `q`. -/
def lastPt (i : S2x1x128.Idx) : Fin cfg0.N :=
  ⟨(i 0).val * 64 + 63, by have h : (i 0).val < 2 := (i 0).isLt; rw [show cfg0.N = 128 from N_0]; omega⟩

theorem cover2 (i : S2x1x128.Idx) : ∃ t : Fin cfg0.N, (cfg0.win 2).flush t = true ∧ i ∈ ((cfg0.win 2).blk t).view.set := by
  have h0 : (i 0).val < 2 := (i 0).isLt
  have h1 : (i 1).val < 1 := (i 1).isLt
  have h2 : (i 2).val < 128 := (i 2).isLt
  refine ⟨lastPt i, (flush0_2 _).mpr (by show ((i 0).val * 64 + 63) % 64 = 63; omega), ?_⟩
  obtain ⟨-, -, -, -, e0, e1, e2, -, -, -⟩ := idx_facts (lastPt i)
  have ev : (lastPt i).val = (i 0).val * 64 + 63 := rfl
  show i ∈ ((View.whole main_v2_0).slice (win0_2.rect (lastPt i))).set
  rw [View.set_slice_whole, Rect.mem_set_unit]
  intro a
  match a with
  | ⟨0, _⟩ => show win0_2.index (lastPt i) (0 : Fin 3) * 1 ≤ (i 0).val ∧ (i 0).val < win0_2.index (lastPt i) (0 : Fin 3) * 1 + 1; omega
  | ⟨1, _⟩ => show win0_2.index (lastPt i) (1 : Fin 3) * 1 ≤ (i 1).val ∧ (i 1).val < win0_2.index (lastPt i) (1 : Fin 3) * 1 + 1; omega
  | ⟨2, _⟩ => show win0_2.index (lastPt i) (2 : Fin 3) * 128 ≤ (i 2).val ∧ (i 2).val < win0_2.index (lastPt i) (2 : Fin 3) * 128 + 128; omega

theorem cover3 (i : S2x1x128.Idx) : ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 128 := (i 2).isLt
  refine ⟨lastPt i, (flush0_3 _).mpr (by show ((i 0).val * 64 + 63) % 64 = 63; omega), ?_⟩
  obtain ⟨-, -, -, -, -, -, -, e0, e1, e2⟩ := idx_facts (lastPt i)
  have ev : (lastPt i).val = (i 0).val * 64 + 63 := rfl
  show i ∈ ((View.whole main_v2_1).slice (win0_3.rect (lastPt i))).set
  rw [View.set_slice_whole, Rect.mem_set_unit]
  intro a
  match a with
  | ⟨0, _⟩ => show win0_3.index (lastPt i) (0 : Fin 3) * 1 ≤ (i 0).val ∧ (i 0).val < win0_3.index (lastPt i) (0 : Fin 3) * 1 + 1; omega
  | ⟨1, _⟩ => show win0_3.index (lastPt i) (1 : Fin 3) * 1 ≤ (i 1).val ∧ (i 1).val < win0_3.index (lastPt i) (1 : Fin 3) * 1 + 1; omega
  | ⟨2, _⟩ => show win0_3.index (lastPt i) (2 : Fin 3) * 128 ≤ (i 2).val ∧ (i 2).val < win0_3.index (lastPt i) (2 : Fin 3) * 128 + 128; omega

/-- The total's array after the region is the cores' sums, -/
theorem final2 (c : Dev nD) : (dats m 0 c).arrAt 2 cfg0.N = GT m c :=
  (dats m 0 c).arrAt_eq_of_cover 2 (GT m c) (flushed2_eq m c) cover2

/-- and so is the count's. -/
theorem final3 (c : Dev nD) : (dats m 0 c).arrAt 3 cfg0.N = GC m c :=
  (dats m 0 c).arrAt_eq_of_cover 3 (GC m c) (flushed3_eq m c) cover3

/-! ## The input blocks, read at an entry -/

/-- Row `r` of point `t`'s block, as a row of the whole array. -/
def rowOf (t : Fin cfg0.N) (r : Fin 32) : Fin 4096 :=
  ⟨t.val * 32 + r.val, by
    have ht : t.val < 128 := lt_of_lt_of_eq t.isLt (show cfg0.N = 128 from N_0)
    have hr := r.isLt
    omega⟩

theorem iblk0_apply (c : Dev nD) (t : Fin cfg0.N) (r : Fin 32) (cc : Fin 50257) :
    (iblk m c 0 t : Vec Ideal S32x50257 .f32) (ix2 r cc) = V m c main_arg0 (ix2 (rowOf t r) cc) := by
  obtain ⟨e0, e1, -, -, -, -, -, -, -, -⟩ := idx_facts t
  unfold iblk
  rw [View.read_apply]
  show V m c main_arg0 _ = V m c main_arg0 _
  congr 1
  funext a
  apply Fin.ext
  match a with
  | ⟨0, _⟩ => show win0_0.index t (0 : Fin 2) * 32 + 1 * r.val = t.val * 32 + r.val; rw [e0]; omega
  | ⟨1, _⟩ => show win0_0.index t (1 : Fin 2) * 50257 + 1 * cc.val = cc.val; rw [e1]; omega

theorem iblk1_apply (c : Dev nD) (t : Fin cfg0.N) (r : Fin 32) :
    (iblk m c 1 t : Vec Ideal S32x1 .f32) (ix2 r (0 : Fin 1)) = V m c main_v1 (ix2 (rowOf t r) (0 : Fin 1)) := by
  obtain ⟨-, -, e0, e1, -, -, -, -, -, -⟩ := idx_facts t
  unfold iblk
  rw [View.read_apply]
  show V m c main_v1 _ = V m c main_v1 _
  congr 1
  funext a
  apply Fin.ext
  match a with
  | ⟨0, _⟩ => show win0_1.index t (0 : Fin 2) * 32 + 1 * r.val = t.val * 32 + r.val; rw [e0]; omega
  | ⟨1, _⟩ => show win0_1.index t (1 : Fin 2) * 1 + 1 * 0 = 0; rw [e1]

end Cert.KernelIdeal.Arrays

end
-- ==== Proof.LibColumns.lean ====
/-
  Column-by-column readings of two-axis arrays, for any sizes.

  A reduction down the rows of an `n × k` array leaves one number per column: entry `c` of the result is the sum over
  the row coordinate `a` of the array at `(a, c)`. The lemmas below read such a sum at a column, in a kernel's spelling
  (a lane reduction from the zero word) and in the host's (a reduce with an initial value); turn a sum over a one-axis
  index set, or over the index set of a `1 × n` row, into the sum over the coordinate; and say that a one-bit flag
  widened to a 32-bit word and read as a signed integer is the same extended real as the flag read as an unsigned one.
-/
import Idealize.ShloMosaic.Lib.ValueIdx
import Idealize.ShloMosaic.PureOps.Ideal.Laws

noncomputable section

namespace Cert.Lib.Columns

open Idealize.ShloMosaic Idealize.ShloMosaic.ValueIdx

/-! ## Sums down a column -/

/-- The index of an `n × k` array over column `c` with the row `a` put back. -/
theorem lift_col {n k : ℕ} (h : (⟨2, ![n, k]⟩ : Shape).Reduces [0] ⟨1, ![k]⟩) (c : Fin k) (a : Fin n) :
    h.lift (ix1 c) a = ix2 a c := by
  funext ax; apply Fin.ext
  match ax with
  | ⟨0, _⟩ => rfl
  | ⟨1, _⟩ => rfl

/-- A lane reduction of an `n × k` array down its rows reads, at column `c`, the sum of that column. -/
theorem colSum_apply {n k : ℕ} {φ : FTy} (src : FVec Ideal ⟨2, ![n, k]⟩ φ) (acc : BitVec φ.bits)
    (h : (⟨2, ![n, k]⟩ : Shape).Reduces [0] ⟨1, ![k]⟩) (hφ : FKind.Formats φ) (hacc : acc = FKind.add.neutral φ hφ) (c : Fin k) :
    multiReduction .add [0] ⟨1, ![k]⟩ src acc h hφ hacc (ix1 c) = ∑ a : Fin n, src (ix2 a c) := by
  rw [Ideal.multiReduction_add_single]
  exact Finset.sum_congr rfl fun a _ => congrArg src (lift_col h c a)

/-- The same for an f32 lane sum from the zero word, with the accumulator's side condition spelt as a program prints it
    (the word equal to itself). -/
theorem colSum_f32_apply {n k : ℕ} (src : FVec Ideal ⟨2, ![n, k]⟩ .f32)
    (h : (⟨2, ![n, k]⟩ : Shape).Reduces [0] ⟨1, ![k]⟩) (hφ : FKind.Formats .f32)
    (hacc : (0x00000000#32 : BitVec 32) = 0x00000000#32) (c : Fin k) :
    multiReduction .add [0] ⟨1, ![k]⟩ src 0x00000000#32 h hφ hacc (ix1 c) = ∑ a : Fin n, src (ix2 a c) :=
  colSum_apply src 0x00000000#32 h hφ hacc c

/-- The host's sum of an `n × k` array down its rows reads, at column `c`, the initial value plus the sum of that column. -/
theorem hostColSum_apply {n k : ℕ} {φ : FTy} {u : Shape} (x : FVec Ideal ⟨2, ![n, k]⟩ φ) (init : u.Idx → Ideal φ)
    (h' : (⟨2, ![n, k]⟩ : Shape).ReducesTo [0] ⟨1, ![k]⟩) (hu : 0 < u.numel)
    (h : (⟨2, ![n, k]⟩ : Shape).Reduces [0] ⟨1, ![k]⟩) (c : Fin k) :
    Host.reduceAdd x init h' hu (ix1 c) = init (Shape.Idx.first hu) + ∑ a : Fin n, x (ix2 a c) := by
  show Ideal.hostReduceAdd h' x (init (Shape.Idx.first hu)) (ix1 c) = _
  rw [Ideal.hostReduceAdd_single h' h]
  exact congrArg (init (Shape.Idx.first hu) + ·) (Finset.sum_congr rfl fun a _ => congrArg x (lift_col h c a))

/-! ## Sums over the index set of a vector and of a one-row matrix -/

/-- A rank-1 index set is its coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : ℕ} (f : (⟨1, ![n]⟩ : Shape).Idx → A) :
    ∑ i, f i = ∑ a : Fin n, f (ix1 a) := by
  rw [← Equiv.sum_comp (idxEquiv1 (n := n)).symm f]
  rfl

/-- A sum over the index set of a `1 × n` row is the sum over the column coordinate, the row coordinate being `0`. -/
theorem sum_idx_1n {A : Type*} [AddCommMonoid A] {n : ℕ} (f : (⟨2, ![1, n]⟩ : Shape).Idx → A) :
    ∑ i, f i = ∑ c : Fin n, f (ix2 (0 : Fin 1) c) := by
  rw [sum_idx2]
  exact Fin.sum_univ_one _

/-! ## A one-bit flag as a number -/

/-- A one-bit flag widened by zeros to a 32-bit word and read as a signed integer is the flag read as an unsigned one:
    `0` or `1` either way. -/
theorem sitofp_setWidth_bit (b : BitVec 1) :
    FloatOps.sitofp (F := Ideal) .f32 (b.setWidth 32) = FloatOps.uitofp (F := Ideal) .f32 b := by
  have h : (b.setWidth 32).toInt = (b.toNat : ℤ) := by
    rcases BitVec.eq_zero_or_eq_one b with h | h <;> subst h <;> decide
  show (((b.setWidth 32).toInt : ℝ) : EReal) = ((b.toNat : ℝ) : EReal)
  rw [h, Int.cast_natCast]

end Cert.Lib.Columns

end
-- ==== Proof.RefValue.lean ====
/-
  The reference, read at an entry over the extended reals.

  Its log-softmax at entry `i` of the logits is `(x i - rowMax) - log rowSum` of the row `i` lies in; the gather picks, for
  row `r`, one entry of that array in row `r` (whatever the column the target word selects), and the fill value for an
  out-of-range target is the NaN word. The count of kept rows is a 32-bit integer sum of the flags, which is the word of
  their number; so the result is the loss of the per-row target log-probabilities.
-/
import proofs.«181233_j69595650064809_2_alg».proof.Proof.ReadP
import proofs.«181233_j69595650064809_2_alg».proof.Proof.Spec
import proofs.«181233_j69595650064809_2_alg».proof.Proof.LibRowMax
import proofs.«181233_j69595650064809_2_alg».proof.Proof.LibColumns
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.ReadP
open Idealize.ShloMosaic Idealize.ShloMosaic.ValueIdx Cert.Lib Cert.Spec

/-- Row `r` of the logits. -/
abbrev xrow (x0 : FVec Ideal S4096x50257 .f32) (r : Fin 4096) : Fin 50257 → EReal := fun c => x0 (ix2 r c)

theorem hred : S4096x50257.Reduces [1] S4096 := by decide

/-- The index of the logits over row `q` with the column `k` put back. -/
theorem lift_row (q : S4096.Idx) (k : Fin (S4096x50257.size 1)) :
    hred.lift q k = ix2 (q 0) (⟨k.val, k.isLt⟩ : Fin 50257) := by
  funext ax; apply Fin.ext
  match ax with
  | ⟨0, _⟩ => rfl
  | ⟨1, _⟩ => rfl

/-- The row maximum (taken once more against `-∞`) at row `q`. -/
theorem rmax_apply (x0 : FVec Ideal S4096x50257 .f32) (q : S4096.Idx) :
    val_main_call0_v2 (F := Ideal) x0 q = rowMax (xrow x0 (q 0)) := by
  rw [val_main_call0_v2_apply, val_main_call0_v1_apply, val_main_call0_cst_0_apply]
  show max (Ideal.ofBits .f32 0xFF800000#32) (val_main_call0_v0 (F := Ideal) x0 q) = _
  rw [RowMax.max_negInf]
  unfold val_main_call0_v0
  rw [Host.reduce_eq_fold_single FloatOps.maximumf x0 _ reducesTo_S4096x50257_S4096_d1 hred h_S_ q]
  have hf : (x0 ∘ hred.lift q) = xrow x0 (q 0) := funext fun k => congrArg x0 (lift_row q k)
  rw [hf]
  rfl

/-- The broadcast row maximum at entry `i`. -/
theorem rmax_bcast (x0 : FVec Ideal S4096x50257 .f32) (i : S4096x50257.Idx) :
    val_main_call0_v4 (F := Ideal) x0 i = rowMax (xrow x0 (i 0)) := by
  rw [val_main_call0_v4_apply, val_main_call0_v3_apply, rmax_apply]
  rfl

/-- The shifted logits at entry `i`. -/
theorem shifted_apply (x0 : FVec Ideal S4096x50257 .f32) (i : S4096x50257.Idx) :
    val_main_call0_v5 (F := Ideal) x0 i = x0 i - rowMax (xrow x0 (i 0)) := by
  rw [val_main_call0_v5_apply, rmax_bcast]
  rfl

theorem idx_v7 (q : S4096.Idx) (k : Fin 50257) : idx_main_call0_v7 q k = ix2 (q 0) k := by
  funext a; apply Fin.ext
  match a with
  | ⟨0, _⟩ => rfl
  | ⟨1, _⟩ => rfl

/-- The row sum of the shifted exponentials at row `q`. -/
theorem rsum_apply (x0 : FVec Ideal S4096x50257 .f32) (q : S4096.Idx) :
    val_main_call0_v7 (F := Ideal) x0 q = rowSum (xrow x0 (q 0)) := by
  rw [val_main_call0_v7_apply, val_main_call0_cst_1_apply]
  show Ideal.ofBits .f32 0x00000000#32 + _ = _
  rw [Ideal.ofBits_zero_f32, zero_add]
  unfold rowSum
  refine Finset.sum_congr rfl fun k _ => ?_
  rw [val_main_call0_v6_apply, shifted_apply, idx_v7]
  rfl

/-- The reference's log-softmax at entry `i`. -/
theorem logp_apply (x0 : FVec Ideal S4096x50257 .f32) (i : S4096x50257.Idx) :
    val_main_v0 (F := Ideal) x0 i = logpR (x0 i) (xrow x0 (i 0)) := by
  have hL : val_main_call0_v10 (F := Ideal) x0 i = Ideal.log (rowSum (xrow x0 (i 0))) := by
    have hidx : (idx_main_call0_v8 (idx_main_call0_v10 i)) 0 = i 0 := rfl
    rw [val_main_call0_v10_apply, val_main_call0_v9_apply, val_main_call0_v8_apply, rsum_apply, hidx]
    generalize rowSum (xrow x0 (i 0)) = S
    rfl
  rw [val_main_v0_apply, shifted_apply, hL]
  unfold logpR
  generalize rowSum (xrow x0 (i 0)) = S
  generalize rowMax (xrow x0 (i 0)) = M
  rfl

/-- The gather's dimension numbers. -/
abbrev gd : GatherDims S4096x50257 S4096x1x1 S4096x1 := gather_S4096x50257_S4096x1x1_S4096x1_n_1_0_0_1_2_11

/-- The entry of the logits the gather reads for row `r`, given the start indices. -/
def pick {w : ℕ} (idx : IVec S4096x1x1 w) (r : Fin 4096) : S4096x50257.Idx := gd.operandIdx (ix2 r (0 : Fin 1)) idx

/-- It lies in row `r`: the row axis is a batching axis of the gather. -/
theorem pick_row {w : ℕ} (idx : IVec S4096x1x1 w) (r : Fin 4096) : (pick idx r) 0 = r := by
  apply Fin.ext
  show gd.start (ix2 r (0 : Fin 1)) idx 0 + gd.batchCoord (ix2 r (0 : Fin 1)) 0 + gd.offCoord (ix2 r (0 : Fin 1)) 0 = r.val
  have hb : (0 : Fin 2) ∈ gd.operandBatchingDims := List.mem_singleton.mpr rfl
  rw [gd.start_batching _ _ 0 hb, gd.offCoord_eq_zero _ 0 (fun h => ((gd.mem_sKept 0).mp h).2 hb), Nat.zero_add, Nat.add_zero]
  unfold GatherDims.batchCoord
  rw [dif_pos hb]
  rfl

/-- Whether row `r`'s target is in range: the gather's mask at the row. -/
def inRange (x1 : IVec S4096 32) (r : Fin 4096) : BitVec 1 := val_main_call1_v12 (F := Ideal) x1 (ix2 r (0 : Fin 1))

/-- The column entry the reference gathers for row `r`. -/
def rpick (x1 : IVec S4096 32) (r : Fin 4096) : S4096x50257.Idx := pick (val_main_call1_v5 (F := Ideal) x1) r

/-- The reference's target log-probability of row `r`. -/
def lR (x0 : FVec Ideal S4096x50257 .f32) (x1 : IVec S4096 32) (r : Fin 4096) : EReal :=
  Scalar.select (inRange x1 r) (logpR (x0 (rpick x1 r)) (xrow x0 r)) (Ideal.ofBits .f32 0x7FC00000#32)

theorem idx_v3 (r : Fin 4096) : idx_main_v3 (ix1 r) = ix2 r (0 : Fin 1) := by
  funext a; apply Fin.ext
  match a with
  | ⟨0, _⟩ => exact Nat.div_one _
  | ⟨1, _⟩ => rfl

/-- The gathered, reshaped log-probabilities at row `r`. -/
theorem v3_apply (x0 : FVec Ideal S4096x50257 .f32) (x1 : IVec S4096 32) (r : Fin 4096) :
    val_main_v3 (F := Ideal) x0 x1 (ix1 r) = lR x0 x1 r := by
  rw [val_main_v3_apply, idx_v3, val_main_v2_apply, val_main_call1_v14_apply, val_main_call1_cst_apply]
  unfold lR inRange
  refine congrArg (fun v => Scalar.select _ v _) ?_
  unfold val_main_call1_v13
  show val_main_v0 (F := Ideal) x0 (rpick x1 r) = _
  rw [logp_apply]
  unfold rpick
  rw [pick_row]

/-- The kept rows' cross entropies at row `r`. -/
theorem v10_apply (x0 : FVec Ideal S4096x50257 .f32) (x1 : IVec S4096 32) (r : Fin 4096) :
    val_main_v10 (F := Ideal) x0 x1 (ix1 r) = ce (lR x0 x1 r) := by
  rw [val_main_v10_apply, val_main_v6_apply, val_main_v7_apply, val_main_v4_apply, val_main_v5_apply, val_main_cst_apply,
    val_main_call2_v1_apply, val_main_call2_v0_apply, val_main_cst_0_apply, v3_apply]
  generalize lR x0 x1 r = l
  rfl

/-- The widened flags at row `r`. -/
theorem v8_apply (x0 : FVec Ideal S4096x50257 .f32) (x1 : IVec S4096 32) (r : Fin 4096) :
    val_main_v8 (F := Ideal) x0 x1 (ix1 r) = (keep (lR x0 x1 r)).setWidth 32 := by
  rw [val_main_v8_apply, val_main_v6_apply, val_main_v4_apply, val_main_v5_apply, val_main_cst_apply, v3_apply]
  generalize lR x0 x1 r = l
  rfl

/-- The integer count: the word of the number of kept rows. -/
theorem v9_apply (x0 : FVec Ideal S4096x50257 .f32) (x1 : IVec S4096 32) (j : S_.Idx) :
    val_main_v9 (F := Ideal) x0 x1 j = BitVec.ofNat 32 (MaskedMean.count fun r : Fin 4096 => keep (lR x0 x1 r)) := by
  unfold val_main_v9
  rw [Host.reduce_eq_fold IntOp.addi _ _ reducesTo_S4096_S_d0 h_S_ j,
    Finset.filter_true_of_mem (fun i _ => funext fun b => b.elim0)]
  have hf : val_main_v8 (F := Ideal) x0 x1 = fun i : S4096.Idx => (keep (lR x0 x1 (i 0))).setWidth 32 :=
    funext fun i => (congrArg (val_main_v8 (F := Ideal) x0 x1) (eq_ix1 i)).trans (v8_apply x0 x1 (i 0))
  rw [hf]
  show (Finset.univ : Finset S4096.Idx).fold IntOp.addi 0#32 _ = _
  rw [MaskedMean.fold_addi_flags fun i : S4096.Idx => keep (lR x0 x1 (i 0))]
  refine congrArg (BitVec.ofNat 32) ?_
  unfold MaskedMean.count
  exact Columns.sum_idx1 fun i : S4096.Idx => (keep (lR x0 x1 (i 0))).toNat

/-- The total: the kept rows' cross entropies summed over the batch. -/
theorem v11_apply (x0 : FVec Ideal S4096x50257 .f32) (x1 : IVec S4096 32) (j : S_.Idx) :
    val_main_v11 (F := Ideal) x0 x1 j = ∑ r : Fin 4096, ce (lR x0 x1 r) := by
  rw [val_main_v11_apply, val_main_cst_1_apply]
  show Ideal.ofBits .f32 0x00000000#32 + _ = _
  rw [Ideal.ofBits_zero_f32, zero_add, Columns.sum_idx1]
  exact Finset.sum_congr rfl fun r _ => v10_apply x0 x1 r

/-- THE REFERENCE'S RESULT: the loss of the per-row target log-probabilities, at its one entry. -/
theorem result_apply (x0 : FVec Ideal S4096x50257 .f32) (x1 : IVec S4096 32) (j : S1.Idx) :
    val_main_v17 (F := Ideal) x0 x1 j = loss (lR x0 x1) := by
  unfold val_main_v17
  refine (shapeCast_apply _ shapeCasts_S_S1 j ix0 ?_).trans ?_
  · rw [Shape.rowMajor_val_one]
    have h0 : (j 0).val < 1 := (j 0).isLt
    have := (S_.rowMajor ix0).isLt
    have hn : S_.numel = 1 := rfl
    omega
  rw [val_main_v16_apply, val_main_v12_apply, val_main_v15_apply, val_main_v14_apply, val_main_v13_apply,
    val_main_c_2_apply, val_main_c_3_apply, v9_apply, v11_apply]
  have hN : (MaskedMean.count fun r : Fin 4096 => keep (lR x0 x1 r)) < 2 ^ 31 :=
    lt_of_le_of_lt (MaskedMean.count_le_card _) (by simp)
  unfold loss
  rw [show (∑ r : Fin 4096, cntF (lR x0 x1 r)) = _ from MaskedMean.sum_flags_ereal fun r : Fin 4096 => keep (lR x0 x1 r)]
  exact MaskedMean.loss_bridge _ hN

end Cert.ReferenceIdeal.RefValue

end
-- ==== Proof.LibBlockSum.lean ====
/-
  A sum over a long one-axis index set, cut into equal blocks.

  An array of `N = a * b` entries laid out in `a` consecutive blocks of `b` entries has entry `i * b + j` at offset `j` of
  block `i`; so a sum over all `N` entries is the sum over the blocks of the sum over the offsets. Cutting twice
  (`N = a * b * c`: blocks of rows of lanes) gives a triple sum with entry `(t * b + r) * c + l` at lane `l` of row `r` of
  block `t`. The sums are in any commutative monoid: only the order and grouping of the terms change.
-/
import Mathlib.Algebra.BigOperators.Fin
import Mathlib.Logic.Equiv.Fin.Basic
import Idealize.ShloMosaic.Lib.ValueIdx

noncomputable section

open scoped BigOperators

namespace Cert.Lib.BlockSum

open Idealize.ShloMosaic Idealize.ShloMosaic.ValueIdx

/-- Offset `j` of block `i`, of `a` blocks of length `b`, is a position below `a * b`. -/
theorem blockPos_lt {a b N : ℕ} (hN : a * b = N) (i : Fin a) (j : Fin b) : i.val * b + j.val < N := by
  subst hN
  calc i.val * b + j.val < i.val * b + b := by have := j.isLt; omega
    _ = (i.val + 1) * b := by ring
    _ ≤ a * b := Nat.mul_le_mul_right b i.isLt

/-- A sum over `a * b` positions is the sum over the `a` blocks of the sum over the `b` offsets. -/
theorem sum_fin_blocks {A : Type*} [AddCommMonoid A] {a b N : ℕ} (hN : a * b = N) (f : Fin N → A) :
    ∑ k, f k = ∑ i : Fin a, ∑ j : Fin b, f ⟨i.val * b + j.val, blockPos_lt hN i j⟩ := by
  subst hN
  rw [← Equiv.sum_comp finProdFinEquiv f, Fintype.sum_prod_type]
  refine Finset.sum_congr rfl fun i _ => Finset.sum_congr rfl fun j _ => congrArg f (Fin.ext ?_)
  show j.val + b * i.val = i.val * b + j.val
  rw [Nat.mul_comm]; omega

/-- A rank-1 index set is its coordinate's range, so a sum over it is the sum over the coordinate. -/
theorem sum_idx1 {A : Type*} [AddCommMonoid A] {n : ℕ} (f : (⟨1, ![n]⟩ : Shape).Idx → A) :
    ∑ i, f i = ∑ k : Fin n, f (ix1 k) := by
  let e : (⟨1, ![n]⟩ : Shape).Idx ≃ Fin n :=
    { toFun := fun i => i 0, invFun := fun k => ix1 k, left_inv := fun i => (eq_ix1 i).symm, right_inv := fun _ => rfl }
  rw [← Equiv.sum_comp e.symm f]
  rfl

/-- Lane `l` of row `r` of block `t`, of `a` blocks of `b` rows of `c` lanes, is a position below `a * b * c`. -/
theorem lanePos_lt {a b c N : ℕ} (hN : a * b * c = N) (t : Fin a) (r : Fin b) (l : Fin c) :
    (t.val * b + r.val) * c + l.val < N :=
  blockPos_lt (a := a * b) hN ⟨t.val * b + r.val, blockPos_lt rfl t r⟩ l

/-- A sum over a one-axis index set of `a * b * c` entries is the triple sum over blocks, rows and lanes. -/
theorem sum_idx1_blocks {A : Type*} [AddCommMonoid A] {a b c N : ℕ} (hN : a * b * c = N)
    (f : (⟨1, ![N]⟩ : Shape).Idx → A) :
    ∑ i, f i = ∑ t : Fin a, ∑ r : Fin b, ∑ l : Fin c, f (ix1 ⟨(t.val * b + r.val) * c + l.val, lanePos_lt hN t r l⟩) := by
  rw [sum_idx1, sum_fin_blocks (a := a * b) (b := c) hN, sum_fin_blocks (a := a) (b := b) (N := a * b) rfl]

end Cert.Lib.BlockSum

end
-- ==== Proof.KernelValue.lean ====
/-
  The kernel's run, read: its result is the loss of the per-row target log-probabilities in the kernel's spelling.

  Before the region the host gathers one logit per row (the NaN word for an out-of-range target); after it, the host adds
  lane 0 of the two cores' totals, and of their counts, and forms the mean. Summing a core's 64 contributions, then the
  two cores, then the 32 rows of each contribution, is summing over all 4096 rows.
-/
import proofs.«181233_j69595650064809_2_alg».proof.Proof.KernelArrays
import proofs.«181233_j69595650064809_2_alg».proof.Proof.RefValue
import proofs.«181233_j69595650064809_2_alg».proof.Proof.LibBlockSum
import Idealize.ShloMosaic.Lib.StableHlo.Run

set_option maxRecDepth 16384

noncomputable section

open scoped BigOperators

open Idealize.ShloMosaic Idealize.ShloMosaic.TcCoe Idealize.SL.Sem
open Idealize.ShloMosaic.Pipeline (Dat)

namespace Cert.KernelIdeal.Value

open Cert.KernelIdeal Cert.KernelIdeal.Gen
open Cert.KernelIdeal.Body Cert.KernelIdeal.Payload Cert.KernelIdeal.Acc Cert.KernelIdeal.Arrays
open Idealize.ShloMosaic.ValueIdx Cert.Spec Cert.Lib

/-! ## The gathered column the region is given -/

/-- The gather the host runs before the region, of any array of logits at the target words. -/
def take (src : FVec Ideal S4096x50257 .f32) (x1 : IVec S4096 32) : FVec Ideal S4096x1 .f32 :=
  select (Cert.ReferenceIdeal.ReadP.val_main_call1_v12 (F := Ideal) x1)
    (Host.gather Cert.ReferenceIdeal.RefValue.gd src (Cert.ReferenceIdeal.ReadP.val_main_call1_v5 (F := Ideal) x1))
    (Cert.ReferenceIdeal.ReadP.val_main_call1_v14 (F := Ideal))

/-- Contents carried into a typed reference's buffer and back are the contents. -/
theorem ofBuf_toBuf {T : BufTy} (x : StableHlo.TRef sig T) (v : T.Contents (Elt Ideal)) : x.ofBuf (x.toBuf v) = v := by
  obtain ⟨r, rfl, _, _⟩ := x
  rfl

attribute [local irreducible] Host.reduce Host.gather in
set_option maxRecDepth 8192 in
set_option maxHeartbeats 1000000 in
/-- After the host's lines before the region, from any valuation: `main_v1` holds the gather of what `main_arg0` held at
    the targets `main_arg1` held. -/
theorem pre_v1 (W : Valuation τ sig (Elt Ideal)) :
    StableHlo.after (List.flatten [hostOps0, hostOps0_1]) W (Proc.devRef .tc main_v1)
      = take (W (Proc.devRef .tc main_arg0)) (W (Proc.devRef .tc main_arg1)) := by
  simp only [Gen.hostOps0, Gen.hostOps0_1, List.flatten_cons, List.flatten_nil, List.append_nil, List.cons_append,
    List.nil_append]
  after_results_simp
  simp only [ofBuf_toBuf]
  rfl

variable (m : (ℓ : Loc nD τ sig) → Buf (Elt Ideal) ℓ)

/-- The column the region finds in window 1's array is the gather of the logits. -/
theorem V_v1 (c : Dev nD) :
    (V m c main_v1 : S4096x1.Idx → EReal) = take (m ((c : Thread nD τ).loc main_arg0)) (m ((c : Thread nD τ).loc main_arg1)) :=
  pre_v1 (fun b => m (c, b))

/-! ## The host's lines after the region -/

/-- Lane 0 of the two blocks of an output array, added from the zero word. -/
def lane0Sum (A : FVec Ideal S2x1x128 .f32) : FVec Ideal S_ .f32 :=
  Host.reduceAdd (shapeCast S2 (extractStridedSlice S2x1x1 ![0, 0, 0] A slices_S2x1x128_S2x1x1_0_0_0) shapeCasts_S2x1x1_S2)
    (constant (F := Ideal) S_ .f32 0x00000000#32) reducesTo_S2_S_d0 h_S_

/-- The host's tail: the mean from the two output arrays. -/
def tail (A2 A3 : FVec Ideal S2x1x128 .f32) : FVec Ideal S1 .f32 :=
  shapeCast S1 (select (cmpf .ogt (lane0Sum A3) (constant (F := Ideal) S_ .f32 0x00000000#32))
    (Host.divf (lane0Sum A2) (maximumf (lane0Sum A3) (constant (F := Ideal) S_ .f32 0x3F800000#32))) (lane0Sum A2)) shapeCasts_S_S1

theorem lane0Sum_apply (A : FVec Ideal S2x1x128 .f32) (j : S_.Idx) :
    lane0Sum A j = ∑ q : Fin 2, A (ix3 q (0 : Fin 1) (0 : Fin 128)) := by
  unfold lane0Sum
  simp only [Host.reduceAdd, Ideal.hostReduceAdd_def]
  rw [Ideal.hostReduceAdd_total reducesTo_S2_S_d0 (fun b => b.elim0)]
  show Ideal.ofBits .f32 0x00000000#32 + _ = _
  rw [Ideal.ofBits_zero_f32, zero_add, Columns.sum_idx1]
  refine Finset.sum_congr rfl fun q _ => ?_
  refine (shapeCast_apply _ shapeCasts_S2x1x1_S2 (ix1 q) (ix3 q (0 : Fin 1) (0 : Fin 1)) ?_).trans ?_
  · rw [Shape.rowMajor_val_three, Shape.rowMajor_val_one]
    show (q.val * 1 + 0) * 1 + 0 = q.val
    omega
  refine extractStridedSlice_apply _ A slices_S2x1x128_S2x1x1_0_0_0 _ (ix3 q (0 : Fin 1) (0 : Fin 128)) fun a => ?_
  match a with
  | ⟨0, _⟩ => show q.val = 0 + q.val; omega
  | ⟨1, _⟩ => rfl
  | ⟨2, _⟩ => rfl

theorem tail_apply (A2 A3 : FVec Ideal S2x1x128 .f32) (j : S1.Idx) :
    tail A2 A3 j = MaskedMean.lossF (∑ q : Fin 2, A2 (ix3 q (0 : Fin 1) (0 : Fin 128))) (∑ q : Fin 2, A3 (ix3 q (0 : Fin 1) (0 : Fin 128))) := by
  unfold tail
  refine (shapeCast_apply _ shapeCasts_S_S1 j ix0 ?_).trans ?_
  · rw [Shape.rowMajor_val_one]
    have h0 : (j 0).val < 1 := (j 0).isLt
    have := (S_.rowMajor ix0).isLt
    have hn : S_.numel = 1 := rfl
    omega
  simp only [select_apply, cmpf_apply, maximumf_apply, constant_apply, lane0Sum_apply]
  show Scalar.select (Ideal.cmp .ogt _ (Ideal.ofBits .f32 0x00000000#32)) (Ideal.div _ (max _ (Ideal.ofBits .f32 0x3F800000#32))) _ = _
  rw [Ideal.ofBits_zero_f32, RefReads.one_f32, lane0Sum_apply, lane0Sum_apply]
  rfl

/-! ## The run -/

/-- The kernel's result on core `c`. -/
def result (c : Dev nD) : Buf (Elt Ideal) ((c : Thread nD τ).loc main_v13) := tail (GT m c) (GC m c)

set_option maxHeartbeats 1000000 in
theorem tail_eq (c : Dev nD) :
    Pipeline.afterTail₀ cfgs (dats m) 0 (V0 m) [hostOps1, hostOps1_1, hostOps1_2] c main_v13 = result m c := by
  unfold Pipeline.afterTail₀
  have e2 : Pipeline.withArrays spec0 c (V0 m c) (fun w => (dats m 0 c).arrAt w cfg0.N) (Proc.devRef .tc main_v2_0) = GT m c :=
    (Pipeline.withArrays_arr spec0 launch0.win.arr_inj c (V0 m c) (fun w => (dats m 0 c).arrAt w cfg0.N) 2).trans (final2 m c)
  have e3 : Pipeline.withArrays spec0 c (V0 m c) (fun w => (dats m 0 c).arrAt w cfg0.N) (Proc.devRef .tc main_v2_1) = GC m c :=
    (Pipeline.withArrays_arr spec0 launch0.win.arr_inj c (V0 m c) (fun w => (dats m 0 c).arrAt w cfg0.N) 3).trans (final3 m c)
  unfold result
  generalize GT m c = A2 at e2
  generalize GC m c = A3 at e3
  generalize Pipeline.withArrays spec0 c (V0 m c) (fun w => (dats m 0 c).arrAt w cfg0.N) = W at e2 e3
  simp only [Gen.hostOps1, Gen.hostOps1_1, Gen.hostOps1_2, List.flatten_cons, List.flatten_nil, List.append_nil, List.cons_append,
    List.nil_append]
  after_results_simp
  rw [e2, e3]
  rfl

/-- The frame run re-posted: the result at the tail of the two arrays, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v13 (Pipeline.mem_restRefs_of main_v13 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

/-! ## The result as the loss of the per-row log-probabilities -/

/-- Row `r` of the logits. -/
abbrev xrow (x0 : FVec Ideal S4096x50257 .f32) (r : Fin 4096) : Fin 50257 → EReal := fun c => x0 (ix2 r c)

/-- The kernel's target log-probability of row `r`: the gathered logit less the row's logsumexp. -/
def lK (x0 : FVec Ideal S4096x50257 .f32) (x1 : IVec S4096 32) (r : Fin 4096) : EReal :=
  logpK (take x0 x1 (ix2 r (0 : Fin 1))) (xrow x0 r)

/-- Row `r` of point `t`'s block gives the log-probability of row `32 t + r` of the batch. -/
theorem blogp_eq (c : Dev nD) (t : Fin cfg0.N) (r : Fin 32) :
    blogp (iblk m c 0 t : Vec Ideal S32x50257 .f32) (iblk m c 1 t : Vec Ideal S32x1 .f32) r
      = lK (m ((c : Thread nD τ).loc main_arg0)) (m ((c : Thread nD τ).loc main_arg1)) (rowOf t r) := by
  show logpK _ _ = logpK _ _
  refine congrArg₂ logpK ((iblk1_apply m c t r).trans (congrFun (V_v1 m c) _)) (funext fun cc => ?_)
  exact (iblk0_apply m c t r cc).trans (congrFun (V_main_arg0 m c) _)

theorem hN2 : 2 * 64 = cfg0.N := by rw [show cfg0.N = 128 from N_0]
theorem hN32 : cfg0.N * 32 = 4096 := by rw [show cfg0.N = 128 from N_0]

/-- The two cores' sums, added, are the sum over all 128 points. -/
theorem cores_sum (P : (n : ℕ) → n < cfg0.N → EReal) :
    ∑ q : Fin 2, coreSum P (ix3 q (0 : Fin 1) (0 : Fin 128)) = ∑ n : Fin cfg0.N, P n.val n.isLt := by
  rw [BlockSum.sum_fin_blocks hN2 (fun n : Fin cfg0.N => P n.val n.isLt)]
  refine Finset.sum_congr rfl fun q _ => ?_
  unfold coreSum
  rw [Finset.sum_range]
  exact Finset.sum_congr rfl fun k _ => ext_of_lt P _ _

/-- The points' sums of their 32 rows, added, are the sum over all 4096 rows. -/
theorem rows_sum (f : Fin 4096 → EReal) : ∑ n : Fin cfg0.N, ∑ r : Fin 32, f (rowOf n r) = ∑ b : Fin 4096, f b :=
  (BlockSum.sum_fin_blocks hN32 f).symm

/-- THE KERNEL'S RESULT: the loss of the per-row target log-probabilities, at its one entry. -/
theorem result_apply (c : Dev nD) (j : S1.Idx) :
    result m c j = loss (lK (m ((c : Thread nD τ).loc main_arg0)) (m ((c : Thread nD τ).loc main_arg1))) := by
  unfold result
  rw [tail_apply]
  show MaskedMean.lossF (∑ q : Fin 2, coreSum (ptTotal m c) _) (∑ q : Fin 2, coreSum (ptCount m c) _) = _
  rw [cores_sum, cores_sum]
  unfold loss
  rw [← rows_sum, ← rows_sum]
  refine congrArg₂ MaskedMean.lossF ?_ ?_
  · refine Finset.sum_congr rfl fun n _ => ?_
    unfold ptTotal blockTotal
    exact Finset.sum_congr rfl fun r _ => congrArg ce (blogp_eq m c n r)
  · refine Finset.sum_congr rfl fun n _ => ?_
    unfold ptCount blockCount
    exact Finset.sum_congr rfl fun r _ => congrArg cntF (blogp_eq m c n r)

/-! ## The two spellings of the target's log-probability agree on real logits -/

theorem take_apply (src : FVec Ideal S4096x50257 .f32) (x1 : IVec S4096 32) (r : Fin 4096) :
    take src x1 (ix2 r (0 : Fin 1)) = Scalar.select (Cert.ReferenceIdeal.RefValue.inRange x1 r)
      (src (Cert.ReferenceIdeal.RefValue.rpick x1 r)) (Ideal.ofBits .f32 0x7FC00000#32) := by
  unfold take
  rw [select_apply, Cert.ReferenceIdeal.ReadP.val_main_call1_v14_apply, Cert.ReferenceIdeal.ReadP.val_main_call1_cst_apply]
  rfl

/-- For an in-range target both are the entry's log-probability, equal because the row's maximum is a real number; for an
    out-of-range one both are `⊥`. -/
theorem lK_eq_lR (x0 : FVec Ideal S4096x50257 .f32) (x1 : IVec S4096 32) (hfin : ∀ i, x0 i ≠ ⊥ ∧ x0 i ≠ ⊤) (r : Fin 4096) :
    lK x0 x1 r = Cert.ReferenceIdeal.RefValue.lR x0 x1 r := by
  unfold lK Cert.ReferenceIdeal.RefValue.lR
  rw [take_apply]
  by_cases h : Cert.ReferenceIdeal.RefValue.inRange x1 r = 1#1
  · rw [h, select_one, select_one]
    exact logpK_eq_logpR _ _ (by decide) fun cc => hfin _
  · rw [eq_zero_of_ne_one h, select_zero, select_zero, nan_word]
    exact logpK_bot _

end Cert.KernelIdeal.Value

end
-- ==== Proof.Finite.lean ====
/-
  The precondition read back: every logit is a real number.

  The precondition says that the conjunction, over all entries, of `|x| < +∞` is true; so each entry's absolute value is
  below `⊤`, and the entry is neither `⊤` nor `⊥`.
-/
import proofs.«181233_j69595650064809_2_alg».proof.Pre_finite_inputs
import proofs.«181233_j69595650064809_2_alg».proof.Proof.Gen.Pre_finite_inputs
import Idealize.ShloMosaic.Lib.ReduceAll
import Idealize.ShloMosaic.Lib.ValueIdx
import Idealize.ShloMosaic.PureOps.Ideal

noncomputable section

namespace Cert.Finite

open Idealize.ShloMosaic Idealize.ShloMosaic.ValueIdx Cert.Pre_finite_inputs Cert.Pre_finite_inputs.Facts

instance : Subsingleton S_.Idx := ⟨fun a b => funext fun d => d.elim0⟩

/-- Under the precondition every entry of the logits is a real number. -/
theorem real_of_pre (x0 : FVec Ideal S4096x50257 .f32) (x1 : IVec S4096 32)
    (h : Cert.Pre_finite_inputs.fn (F := Ideal) x0 x1 = fun _ => 1#1) (i : S4096x50257.Idx) :
    x0 i ≠ ⊥ ∧ x0 i ≠ ⊤ := by
  have h0 := congrFun h ix0
  dsimp only [Cert.Pre_finite_inputs.fn] at h0
  have hi := Host.reduce_andi_all _ _ _ _ ix0 h0 i
  have hlt : max (x0 i) (-(x0 i)) < (⊤ : EReal) := by
    have e : Ideal.cmp .olt (max (x0 i) (-(x0 i))) (Ideal.ofBits .f32 0x7F800000#32) = 1#1 := hi
    have etop : Ideal.ofBits .f32 0x7F800000#32 = (⊤ : EReal) := by simp [Ideal.ofBits, Ideal.ieee]
    rw [etop] at e
    by_contra hn
    simp [Ideal.cmp, hn] at e
  constructor
  · intro hb
    rw [hb] at hlt
    simp at hlt
  · intro ht
    rw [ht] at hlt
    simp at hlt

end Cert.Finite

end
-- ==== Proof.lean ====
/-
  The certificate: a cross-entropy loss over the rows whose target probability is below a threshold.

  The kernel streams the 4096 × 50257 logits in blocks of 32 rows, two cores taking 64 blocks each; for every row it forms
  the logsumexp `M + log Σ exp (x - M)` (`M` the row's maximum), subtracts it from the target's logit gathered by the
  host beforehand, and accumulates per core the kept rows' cross entropies and their number; the host adds the two cores
  and divides. The reference forms the whole log-softmax `(x - M) - log Σ exp (x - M)`, gathers the target's entry, and
  counts the kept rows as an integer.

  Over the extended reals the two agree because (a) every logit is a real number under the precondition, so each row's
  maximum is real and `a - (M + L) = (a - M) - L` whatever `L` is; (b) a gather reads one entry of its operand at a
  position that does not depend on the operand's values, so gathering before or after an entrywise change of the row
  gives the same entry, and an out-of-range target reads `⊥` on both sides (`⊥ - y = ⊥`); (c) a sum over 4096 rows is
  the sum over 2 cores of 64 blocks of 32 rows; (d) a 32-bit integer sum of at most 4096 flags is their number, which is
  also the sum of the flags as extended reals, and comparing it with zero and clamping it below by one commute with the
  reading. The frames of the two kernels are the generated ones; the reference's is its run read in three stretches; the
  ideal pass rewrote nothing.
-/
import proofs.«181233_j69595650064809_2_alg».proof.Defs
import proofs.«181233_j69595650064809_2_alg».proof.Proof.Gen.Kernel
import proofs.«181233_j69595650064809_2_alg».proof.Proof.Gen.Kernel.Skeleton
import proofs.«181233_j69595650064809_2_alg».proof.Proof.Gen.Kernel.Launch
import proofs.«181233_j69595650064809_2_alg».proof.Proof.Gen.Kernel.Points
import proofs.«181233_j69595650064809_2_alg».proof.Proof.Gen.Kernel.Frame
import proofs.«181233_j69595650064809_2_alg».proof.Proof.Gen.KernelIdeal
import proofs.«181233_j69595650064809_2_alg».proof.Proof.Gen.KernelIdeal.Skeleton
import proofs.«181233_j69595650064809_2_alg».proof.Proof.Gen.KernelIdeal.Launch
import proofs.«181233_j69595650064809_2_alg».proof.Proof.Gen.KernelIdeal.Points
import proofs.«181233_j69595650064809_2_alg».proof.Proof.Gen.KernelIdeal.Frame
import proofs.«181233_j69595650064809_2_alg».proof.Proof.Gen.ReferenceIdeal
import proofs.«181233_j69595650064809_2_alg».proof.Proof.RefRun
import proofs.«181233_j69595650064809_2_alg».proof.Proof.Gen.Pre_finite_inputs
import proofs.«181233_j69595650064809_2_alg».proof.Proof.KernelValue
import proofs.«181233_j69595650064809_2_alg».proof.Proof.RefValue
import proofs.«181233_j69595650064809_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

/-- At the ideal instance the kernel's result is the loss of the per-row log-probabilities in its spelling, the reference's
    the loss in its own; under the precondition the two spellings agree row by row. -/
theorem algebraic : Cert.algebraic_KernelIdeal_ReferenceIdeal := by
  intro m ρ m' ρ' hpre hagree
  refine ⟨fun c => Cert.KernelIdeal.Value.result m c, Cert.KernelIdeal.Value.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  funext j
  refine (Cert.ReferenceIdeal.RefValue.result_apply _ _ j).trans ((Cert.KernelIdeal.Value.result_apply m c j).trans ?_).symm
  refine congrArg Cert.Spec.loss (funext fun r => ?_)
  exact Cert.KernelIdeal.Value.lK_eq_lR _ _ (Cert.Finite.real_of_pre _ _ (hpre c)) r

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
